-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x1 .f32) (main_arg10 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S256 : Shape := ⟨1, ![256]⟩
abbrev S100000x1 : Shape := ⟨2, ![100000, 1]⟩
abbrev S256x32 : Shape := ⟨2, ![256, 32]⟩
abbrev S256x1 : Shape := ⟨2, ![256, 1]⟩
abbrev S1x1 : Shape := ⟨2, ![1, 1]⟩

abbrev nBuf : Space → Nat
  | .hbm => 108
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x32, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x32, .f32⟩
  | .hbm, ⟨61, _⟩ => ⟨S3300000x1, .f32⟩
  | .hbm, ⟨62, _⟩ => ⟨S3300000x32, .f32⟩
  | .hbm, ⟨63, _⟩ => ⟨S3300000x32, .f32⟩
  | .hbm, ⟨64, _⟩ => ⟨S_, .f32⟩
  | .hbm, ⟨65, _⟩ => ⟨S100000x32, .f32⟩
  | .hbm, ⟨66, _⟩ => ⟨S3300000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x32, .f32⟩
  | .hbm, ⟨80, _⟩ => ⟨S3300000x1, .f32⟩
  | .hbm, ⟨81, _⟩ => ⟨S3300000x32, .f32⟩
  | .hbm, ⟨82, _⟩ => ⟨S3300000x32, .f32⟩
  | .hbm, ⟨83, _⟩ => ⟨S_, .f32⟩
  | .hbm, ⟨84, _⟩ => ⟨S100000x32, .f32⟩
  | .hbm, ⟨85, _⟩ => ⟨S3300000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S256, .f32⟩
  | .hbm, ⟨93, _⟩ => ⟨S100000x1, .i32⟩
  | .hbm, ⟨94, _⟩ => ⟨S256, .f32⟩
  | .hbm, ⟨95, _⟩ => ⟨S_, .f32⟩
  | .hbm, ⟨96, _⟩ => ⟨S256x32, .f32⟩
  | .hbm, ⟨97, _⟩ => ⟨S100000x1, .i32⟩
  | .hbm, ⟨98, _⟩ => ⟨S256x32, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256x1, .f32⟩
  | .hbm, ⟨103, _⟩ => ⟨S256x32, .f32⟩
  | .hbm, ⟨104, _⟩ => ⟨S256x32, .f32⟩
  | .hbm, ⟨105, _⟩ => ⟨S1x32, .f32⟩
  | .hbm, ⟨106, _⟩ => ⟨S1x1, .f32⟩
  | .hbm, ⟨107, _⟩ => ⟨S256x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S256x32, .f32⟩
  | .local _ .vmem, ⟨21, _⟩ => ⟨S32x32, .f32⟩
  | .local _ .vmem, ⟨22, _⟩ => ⟨S1x32, .f32⟩
  | .local _ .vmem, ⟨23, _⟩ => ⟨S32x1, .f32⟩
  | .local _ .vmem, ⟨24, _⟩ => ⟨S1x1, .f32⟩
  | .local _ .vmem, ⟨25, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  bcast_S_S256 : S_.BroadcastsInDim S256 (![] : Fin 0 → Fin S256.rank)
  bcast_S100000_S100000x1_0 : S100000.BroadcastsInDim S100000x1 (![0] : Fin 1 → Fin S100000x1.rank)
  bcast_S_S256x32 : S_.BroadcastsInDim S256x32 (![] : Fin 0 → Fin S256x32.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  shapeCasts_S1_S1x1 : S1.ShapeCasts S1x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  scatter_S256_S100000x1_S100000_n_0_0_1_wf : ScatterDims.WF S256 S100000x1 S100000 [] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x32.size a ≤ S256x32.size a
  hwx4_0 : ∀ i : grid4.Coords, EltTy.bits .f32 = 32 ∨ (Rect.block (s := S256x32) S256x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S256x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S256x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S256 : Shape := ⟨1, ![256]⟩
abbrev S100000x1 : Shape := ⟨2, ![100000, 1]⟩
abbrev S256x32 : Shape := ⟨2, ![256, 32]⟩
abbrev S256x1 : Shape := ⟨2, ![256, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x1, .f32⟩
  | 10 => ⟨S1, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x32, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x32, .f32⟩
  | 61 => ⟨S3300000x1, .f32⟩
  | 62 => ⟨S3300000x32, .f32⟩
  | 63 => ⟨S3300000x32, .f32⟩
  | 64 => ⟨S_, .f32⟩
  | 65 => ⟨S100000x32, .f32⟩
  | 66 => ⟨S3300000x1, .i32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x32, .f32⟩
  | 84 => ⟨S3300000x1, .f32⟩
  | 85 => ⟨S3300000x32, .f32⟩
  | 86 => ⟨S3300000x32, .f32⟩
  | 87 => ⟨S_, .f32⟩
  | 88 => ⟨S100000x32, .f32⟩
  | 89 => ⟨S3300000x1, .i32⟩
  | 90 => ⟨S100000x32, .f32⟩
  | 91 => ⟨S1x32, .f32⟩
  | 92 => ⟨S100000x32, .f32⟩
  | 93 => ⟨S100000x32, .f32⟩
  | 94 => ⟨S_, .f32⟩
  | 95 => ⟨S100000, .f32⟩
  | 96 => ⟨S_, .f32⟩
  | 97 => ⟨S256, .f32⟩
  | 98 => ⟨S100000x1, .i32⟩
  | 99 => ⟨S256, .f32⟩
  | 100 => ⟨S_, .f32⟩
  | 101 => ⟨S256x32, .f32⟩
  | 102 => ⟨S100000x1, .i32⟩
  | 103 => ⟨S256x32, .f32⟩
  | 104 => ⟨S_, .f32⟩
  | 105 => ⟨S256, .f32⟩
  | 106 => ⟨S256, .f32⟩
  | 107 => ⟨S256x1, .f32⟩
  | 108 => ⟨S256x32, .f32⟩
  | 109 => ⟨S256x32, .f32⟩
  | 110 => ⟨S256x32, .f32⟩
  | 111 => ⟨S1x32, .f32⟩
  | 112 => ⟨S256x32, .f32⟩
  | 113 => ⟨S256x32, .f32⟩
  | 114 => ⟨S_, .f32⟩
  | 115 => ⟨S256x32, .f32⟩
  | 116 => ⟨S256x32, .f32⟩
  | 117 => ⟨S256x1, .f32⟩
  | 118 => ⟨S1x1, .f32⟩
  | 119 => ⟨S256x1, .f32⟩
  | 120 => ⟨S256x1, .f32⟩
  | 121 => ⟨S256x1, .f32⟩
  | 122 => ⟨S256x1, .f32⟩
  | 123 => ⟨S_, .f32⟩
  | 124 => ⟨S256x1, .f32⟩
  | 125 => ⟨S256x1, .f32⟩
  | 126 => ⟨S_, .f32⟩
  | 127 => ⟨S256x1, .f32⟩
  | _ => ⟨S100000x128, .f32⟩

abbrev hbmTy0_1 (i : Nat) : BufTy := match i % 128 with
  | 0 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256 : S_.BroadcastsInDim S256 (![] : Fin 0 → Fin S256.rank)
  bcast_S100000_S100000x1_0 : S100000.BroadcastsInDim S100000x1 (![0] : Fin 1 → Fin S100000x1.rank)
  bcast_S_S256x32 : S_.BroadcastsInDim S256x32 (![] : Fin 0 → Fin S256x32.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S256_S100000x1_S100000_n_0_0_1_wf : ScatterDims.WF S256 S100000x1 S100000 [] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x1_S256x1_1_0_0_1_n_n_wf : DotDims.WF S256x32 S32x1 S256x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.KRun.lean ====
/-
  The idealized kernel's run with its RESULT named. The run of @main is eleven segments — six stretches of host
  operations and five pipelined regions —, and after the last one every unscoped buffer of a core holds the fold of
  the segments' effects over the launch memory. This module states that fact for the result buffer: the final memory
  at the result is the fold's value there, and the argument arrays are as launched.
-/
import proofs.«125847_j27788438405232_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the value the fold of
    the segments leaves there, and each argument array ends as launched. -/
theorem run_result : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.ChainLib.lean ====
/-
  Two small tactics for reading a buffer after a stretch of host operations. The contents after a stretch are a fold
  of the operations' effects over the contents before it; a buffer's value after the fold is its last writer's
  function of the operands' values, and a buffer no operation writes keeps its contents.
-/
import proofs.«125847_j27788438405232_1_alg».proof.Proof.Gen.KernelIdeal.Frame

namespace Cert.KernelIdeal.Chain

open Idealize.ShloMosaic Idealize.ShloMosaic.StableHlo

/-- Unfolds a fold of host operations at one buffer: one simplifier pass, then the same rewriting inside the piece
    lists of concatenations, which the pass does not enter. -/
macro "after_all" : tactic =>
  `(tactic| ((try after_results_simp)
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.KernelIdeal.Chain
-- ==== Proof.ChainA.lean ====
/-
  The graph side of the kernel's program, before the first region. From the edge list the host operations build the
  source and destination index vectors with the self loops appended, the degree of every node by a scatter-add of ones,
  its inverse square root where the degree is positive, and the per-edge normalisation as the product of the two
  gathered factors. The reference builds the same three vectors with the same operations, so after these stretches the
  three buffers hold the reference's own stages of the edge list, and no argument array has been written.
-/
import proofs.«125847_j27788438405232_1_alg».proof.Proof.Gen.KernelIdeal.Frame
import proofs.«125847_j27788438405232_1_alg».proof.Proof.RefRead
import proofs.«125847_j27788438405232_1_alg».proof.Proof.ChainLib
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

/-! The launch contents of the eleven argument arrays on core `c`. -/
abbrev A0 (m : (ℓ : Loc nD τ sig) → Buf (Elt Ideal) ℓ) (c : Dev nD) := m ((c : Thread nD τ).loc main_arg0)
abbrev A1 (m : (ℓ : Loc nD τ sig) → Buf (Elt Ideal) ℓ) (c : Dev nD) := m ((c : Thread nD τ).loc main_arg1)
abbrev A2 (m : (ℓ : Loc nD τ sig) → Buf (Elt Ideal) ℓ) (c : Dev nD) := m ((c : Thread nD τ).loc main_arg2)
abbrev A3 (m : (ℓ : Loc nD τ sig) → Buf (Elt Ideal) ℓ) (c : Dev nD) := m ((c : Thread nD τ).loc main_arg3)
abbrev A4 (m : (ℓ : Loc nD τ sig) → Buf (Elt Ideal) ℓ) (c : Dev nD) := m ((c : Thread nD τ).loc main_arg4)
abbrev A5 (m : (ℓ : Loc nD τ sig) → Buf (Elt Ideal) ℓ) (c : Dev nD) := m ((c : Thread nD τ).loc main_arg5)
abbrev A6 (m : (ℓ : Loc nD τ sig) → Buf (Elt Ideal) ℓ) (c : Dev nD) := m ((c : Thread nD τ).loc main_arg6)
abbrev A7 (m : (ℓ : Loc nD τ sig) → Buf (Elt Ideal) ℓ) (c : Dev nD) := m ((c : Thread nD τ).loc main_arg7)
abbrev A8 (m : (ℓ : Loc nD τ sig) → Buf (Elt Ideal) ℓ) (c : Dev nD) := m ((c : Thread nD τ).loc main_arg8)
abbrev A9 (m : (ℓ : Loc nD τ sig) → Buf (Elt Ideal) ℓ) (c : Dev nD) := m ((c : Thread nD τ).loc main_arg9)
abbrev A10 (m : (ℓ : Loc nD τ sig) → Buf (Elt Ideal) ℓ) (c : Dev nD) := m ((c : Thread nD τ).loc main_arg10)

variable (m : (ℓ : Loc nD τ sig) → Buf (Elt Ideal) ℓ) (ρ : Dev nD → PrngReg) (c : Dev nD)

/-- The source indices: the first row of the edge list, then every node once. -/
theorem W3_v3 : W3 m ρ c (Proc.devRef .tc main_v3) = val_main_v3 (F := Ideal) (A1 m c) := by
  show StableHlo.after hostOps0_2 (StableHlo.after hostOps0_1 (StableHlo.after hostOps0 (W0 m ρ c))) (Proc.devRef .tc main_v3) = _
  after_all <;> rfl

/-- The destination indices: the second row of the edge list, then every node once. -/
theorem W3_v6 : W3 m ρ c (Proc.devRef .tc main_v6) = val_main_v6 (F := Ideal) (A1 m c) := by
  show StableHlo.after hostOps0_2 (StableHlo.after hostOps0_1 (StableHlo.after hostOps0 (W0 m ρ c))) (Proc.devRef .tc main_v6) = _
  after_all <;> rfl

/-- Whether a node's degree is positive, after the first stretch. -/
theorem W1_v12 : W1 m ρ c (Proc.devRef .tc main_v12) = val_main_v12 (F := Ideal) (A1 m c) := by
  show StableHlo.after hostOps0 (W0 m ρ c) (Proc.devRef .tc main_v12) = _
  after_all <;> rfl

/-- The inverse square root of every degree, after the first stretch. -/
theorem W1_v13 : W1 m ρ c (Proc.devRef .tc main_v13) = val_main_v13 (F := Ideal) (A1 m c) := by
  show StableHlo.after hostOps0 (W0 m ρ c) (Proc.devRef .tc main_v13) = _
  after_all <;> rfl

/-- The zero that replaces the inverse square root of a zero degree. -/
theorem W1_cst2 : W1 m ρ c (Proc.devRef .tc main_cst_2) = val_main_cst_2 (F := Ideal) := by
  show StableHlo.after hostOps0 (W0 m ρ c) (Proc.devRef .tc main_cst_2) = _
  after_all <;> rfl

/-- The three operations of the selection, from any contents: they read the positivity mask, the inverse square roots
    and the zero, and write the selected vector. -/
theorem select_of (Wx : Valuation τ sig (Elt Ideal)) (x12 : (⟨S100000, .i1⟩ : BufTy).Contents (Elt Ideal))
    (x13 : (⟨S100000, .f32⟩ : BufTy).Contents (Elt Ideal))
    (h12 : Wx (Proc.devRef .tc main_v12) = x12) (h13 : Wx (Proc.devRef .tc main_v13) = x13)
    (hc : Wx (Proc.devRef .tc main_cst_2) = val_main_cst_2 (F := Ideal)) :
    StableHlo.after hostOps0_1 Wx (Proc.devRef .tc main_v14) = select x12 x13 (val_main_call0_v1 (F := Ideal)) := by
  after_all
  rw [h12, h13, hc]
  rfl

/-- The normalising factor of every node: the inverse square root of its degree where the degree is positive, zero
    elsewhere. -/
theorem W2_v14 : W2 m ρ c (Proc.devRef .tc main_v14) = val_main_v14 (F := Ideal) (A1 m c) :=
  select_of (W1 m ρ c) _ _ (W1_v12 m ρ c) (W1_v13 m ρ c) (W1_cst2 m ρ c)

theorem W2_v3 : W2 m ρ c (Proc.devRef .tc main_v3) = val_main_v3 (F := Ideal) (A1 m c) := by
  show StableHlo.after hostOps0_1 (StableHlo.after hostOps0 (W0 m ρ c)) (Proc.devRef .tc main_v3) = _
  after_all <;> rfl

theorem W2_v6 : W2 m ρ c (Proc.devRef .tc main_v6) = val_main_v6 (F := Ideal) (A1 m c) := by
  show StableHlo.after hostOps0_1 (StableHlo.after hostOps0 (W0 m ρ c)) (Proc.devRef .tc main_v6) = _
  after_all <;> rfl

/-- The last stretch before the first region, from any contents: it reads the factor vector and the two index vectors
    and writes the per-edge normalisation, the factors of the two end points gathered and multiplied. -/
theorem norm_of (Wx : Valuation τ sig (Elt Ideal))
    (h14 : Wx (Proc.devRef .tc main_v14) = val_main_v14 (F := Ideal) (A1 m c))
    (h3 : Wx (Proc.devRef .tc main_v3) = val_main_v3 (F := Ideal) (A1 m c))
    (h6 : Wx (Proc.devRef .tc main_v6) = val_main_v6 (F := Ideal) (A1 m c)) :
    StableHlo.after hostOps0_2 Wx (Proc.devRef .tc main_v29) = val_main_v29 (F := Ideal) (A1 m c) := by
  after_all
  rw [h14, h3, h6]
  unfold val_main_v29 val_main_v21 val_main_v28 val_main_v20 val_main_v27 val_main_v19 val_main_v26 val_main_v16 val_main_v18
    val_main_v23 val_main_v25
  generalize val_main_v14 (F := Ideal) (A1 m c) = d
  generalize val_main_v3 (F := Ideal) (A1 m c) = s
  generalize val_main_v6 (F := Ideal) (A1 m c) = t
  rfl

/-- The per-edge normalisation. -/
theorem W3_v29 : W3 m ρ c (Proc.devRef .tc main_v29) = val_main_v29 (F := Ideal) (A1 m c) :=
  norm_of m c (W2 m ρ c) (W2_v14 m ρ c) (W2_v3 m ρ c) (W2_v6 m ρ c)

/-! No operation before the first region writes an argument array. -/
theorem W3_arg0 : W3 m ρ c (Proc.devRef .tc main_arg0) = (A0 m c) := by
  show StableHlo.after hostOps0_2 (StableHlo.after hostOps0_1 (StableHlo.after hostOps0 (W0 m ρ c))) (Proc.devRef .tc main_arg0) = _
  after_all <;> rfl
theorem W3_arg2 : W3 m ρ c (Proc.devRef .tc main_arg2) = (A2 m c) := by
  show StableHlo.after hostOps0_2 (StableHlo.after hostOps0_1 (StableHlo.after hostOps0 (W0 m ρ c))) (Proc.devRef .tc main_arg2) = _
  after_all <;> rfl
theorem W3_arg3 : W3 m ρ c (Proc.devRef .tc main_arg3) = (A3 m c) := by
  show StableHlo.after hostOps0_2 (StableHlo.after hostOps0_1 (StableHlo.after hostOps0 (W0 m ρ c))) (Proc.devRef .tc main_arg3) = _
  after_all <;> rfl
theorem W3_arg4 : W3 m ρ c (Proc.devRef .tc main_arg4) = (A4 m c) := by
  show StableHlo.after hostOps0_2 (StableHlo.after hostOps0_1 (StableHlo.after hostOps0 (W0 m ρ c))) (Proc.devRef .tc main_arg4) = _
  after_all <;> rfl
theorem W3_arg5 : W3 m ρ c (Proc.devRef .tc main_arg5) = (A5 m c) := by
  show StableHlo.after hostOps0_2 (StableHlo.after hostOps0_1 (StableHlo.after hostOps0 (W0 m ρ c))) (Proc.devRef .tc main_arg5) = _
  after_all <;> rfl
theorem W3_arg6 : W3 m ρ c (Proc.devRef .tc main_arg6) = (A6 m c) := by
  show StableHlo.after hostOps0_2 (StableHlo.after hostOps0_1 (StableHlo.after hostOps0 (W0 m ρ c))) (Proc.devRef .tc main_arg6) = _
  after_all <;> rfl
theorem W3_arg7 : W3 m ρ c (Proc.devRef .tc main_arg7) = (A7 m c) := by
  show StableHlo.after hostOps0_2 (StableHlo.after hostOps0_1 (StableHlo.after hostOps0 (W0 m ρ c))) (Proc.devRef .tc main_arg7) = _
  after_all <;> rfl
theorem W3_arg8 : W3 m ρ c (Proc.devRef .tc main_arg8) = (A8 m c) := by
  show StableHlo.after hostOps0_2 (StableHlo.after hostOps0_1 (StableHlo.after hostOps0 (W0 m ρ c))) (Proc.devRef .tc main_arg8) = _
  after_all <;> rfl
theorem W3_arg9 : W3 m ρ c (Proc.devRef .tc main_arg9) = (A9 m c) := by
  show StableHlo.after hostOps0_2 (StableHlo.after hostOps0_1 (StableHlo.after hostOps0 (W0 m ρ c))) (Proc.devRef .tc main_arg9) = _
  after_all <;> rfl
theorem W3_arg10 : W3 m ρ c (Proc.devRef .tc main_arg10) = (A10 m c) := by
  show StableHlo.after hostOps0_2 (StableHlo.after hostOps0_1 (StableHlo.after hostOps0 (W0 m ρ c))) (Proc.devRef .tc main_arg10) = _
  after_all <;> rfl

end Cert.KernelIdeal.Chain

end
-- ==== Proof.Region0.lean ====
/-
  The first dense layer's linear map, read off the pipelined region. The region walks the 100000 rows of the node
  features in ten blocks of 10000 rows; at each block the body multiplies the block by the whole 128 x 32 weight matrix
  into a zero accumulator. Entry (r, q) of a block's product is the sum over k of x(r, k) * w(k, q), and a row of the
  block is a row of the array, so every block is the restriction of ONE function of the two arrays: the matrix product
  the reference takes with a single dot_general. The ten blocks tile the output, hence the output array ends holding
  that product.
-/
import proofs.«125847_j27788438405232_1_alg».proof.Proof.Gen.KernelIdeal.Frame
import proofs.«125847_j27788438405232_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block's product, entry by entry -/

/-- Row `p` of the left block and contraction coordinate `k`. -/
abbrev lrow (j : S10000x32.Idx) (k : Fin 128) : S10000x128.Idx := fun a => match a with
  | ⟨0, _⟩ => ⟨(j 0).val, (j 0).isLt⟩
  | ⟨1, _⟩ => ⟨k.val, k.isLt⟩
/-- Contraction coordinate `k` and column `q` of the right operand. -/
abbrev rcol (j : S10000x32.Idx) (k : Fin 128) : S128x32.Idx := fun a => match a with
  | ⟨0, _⟩ => ⟨k.val, k.isLt⟩
  | ⟨1, _⟩ => ⟨(j 1).val, (j 1).isLt⟩

theorem lhs_0 (j : S10000x32.Idx) (q : dot_S10000x128_S128x32_S10000x32_1_0_0_1_n_n.contr.Idx) :
    (dot_S10000x128_S128x32_S10000x32_1_0_0_1_n_n.lhsIdx j q 0).val = (j 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_1 (j : S10000x32.Idx) (q : dot_S10000x128_S128x32_S10000x32_1_0_0_1_n_n.contr.Idx) :
    (dot_S10000x128_S128x32_S10000x32_1_0_0_1_n_n.lhsIdx j q 1).val = (q ⟨0, by decide⟩).val :=
  dot_S10000x128_S128x32_S10000x32_1_0_0_1_n_n.lhsIdx_val_of_single rfl j q
theorem rhs_0 (j : S10000x32.Idx) (q : dot_S10000x128_S128x32_S10000x32_1_0_0_1_n_n.contr.Idx) :
    (dot_S10000x128_S128x32_S10000x32_1_0_0_1_n_n.rhsIdx j q 0).val = (q ⟨0, by decide⟩).val :=
  dot_S10000x128_S128x32_S10000x32_1_0_0_1_n_n.rhsIdx_val_of_single rfl j q
theorem rhs_1 (j : S10000x32.Idx) (q : dot_S10000x128_S128x32_S10000x32_1_0_0_1_n_n.contr.Idx) :
    (dot_S10000x128_S128x32_S10000x32_1_0_0_1_n_n.rhsIdx j q 1).val = (j 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The body's product of a row block with the weight matrix, into a zero accumulator, is at every entry the exact
    sum over the contraction axis: the roundings to bf16 on the way in are the identity on extended reals. -/
theorem pay_apply (x0 : Vec Ideal S10000x128 .f32) (x1 : Vec Ideal S128x32 .f32) (j : S10000x32.Idx) :
    k0_pay1 x0 x1 j = ∑ k : Fin 128, x0 (lrow j k) * x1 (rcol j k) := by
  unfold k0_pay1
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx j ((contrEquiv1 dot_S10000x128_S128x32_S10000x32_1_0_0_1_n_n 128 rfl rfl).symm k) = lrow j k := funext fun a => Fin.ext (by
    match a with
    | ⟨0, _⟩ => exact lhs_0 _ _
    | ⟨1, _⟩ => exact (lhs_1 _ _).trans hk)
  have er : dot_S10000x128_S128x32_S10000x32_1_0_0_1_n_n.rhsIdx j ((contrEquiv1 dot_S10000x128_S128x32_S10000x32_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## From blocks to the array -/

/-- The whole product, as the reference's own dot_general of the two arrays the region finds. -/
abbrev prod (c : Dev nD) : S100000x32.Idx → Elt Ideal .f32 :=
  Cert.ReferenceIdeal.ReadP.val_main_v30 (F := Ideal) (V c main_arg0) (V c main_arg3)

/-- The index maps over the grid: the left block and the output block move together down the rows, one block per
    point; the weight matrix and the column axis stay put. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What a point writes back is its block of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  show k0_pay1 (iblk0 V c 0 t) (iblk0 V c 1 t) j = prod V c (((cfg0.win 2).blk t).view.emb j)
  refine (pay_apply _ _ j).trans ?_
  unfold prod
  rw [Cert.ReferenceIdeal.ReadP.val_main_v30_apply]
  refine Finset.sum_congr rfl fun k _ => ?_
  have hl : iblk0 V c 0 t (lrow j k) = V c main_arg0 (Cert.ReferenceIdeal.ReadP.lidx_main_v30 (((cfg0.win 2).blk t).view.emb j) k) := by
    show V c main_arg0 (((cfg0.win 0).blk t).view.emb (lrow j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; rw [e0]
    | ⟨1, _⟩ => show win0_0.index t (1 : Fin 2) * 128 + 1 * k.val = k.val; rw [e1]; omega
  have hr : iblk0 V c 1 t (rcol j k) = V c main_arg3 (Cert.ReferenceIdeal.ReadP.ridx_main_v30 (((cfg0.win 2).blk t).view.emb j) k) := by
    show V c main_arg3 (((cfg0.win 1).blk t).view.emb (rcol j k)) = _
    refine congrArg (V c main_arg3) (funext fun a => Fin.ext ?_)
    match a with
    | ⟨0, _⟩ => show win0_1.index t (0 : Fin 2) * 128 + 1 * k.val = k.val; rw [e2]; omega
    | ⟨1, _⟩ => show win0_1.index t (1 : Fin 2) * 32 + 1 * (j 1).val = win0_2.index t (1 : Fin 2) * 32 + 1 * (j 1).val; rw [e3, e5]
  rw [hl, hr]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- The ten row blocks tile the output: row `r` lies in the block of point `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨e0, e1, e2, e3, e4, e5⟩ := idx_facts t
  refine ⟨t, flush0_2 t, ?_⟩
  rw [mem_blk]
  intro a
  have ht : t.val = (i 0).val / 10000 := rfl
  match a with
  | ⟨0, _⟩ => show win0_2.index t (0 : Fin 2) * 10000 ≤ (i 0).val ∧ (i 0).val < win0_2.index t (0 : Fin 2) * 10000 + 10000; rw [e4]; omega
  | ⟨1, _⟩ => show win0_2.index t (1 : Fin 2) * 32 ≤ (i 1).val ∧ (i 1).val < win0_2.index t (1 : Fin 2) * 32 + 32; rw [e5]; omega

/-- The output array after the region: the whole product of the two arrays the region finds. -/
theorem final (c : Dev nD) : (dat0 V c).arrAt 2 cfg0.N = prod V c :=
  (dat0 V c).arrAt_eq_of_cover 2 (prod V c) (fun t _ => flushed_eq V c t) (cover)

end Cert.KernelIdeal.Region0

end
-- ==== Proof.ChainB.lean ====
/-
  The first layer's linear map and aggregation. The first region leaves the product of the node features with the
  first weights in its output array and touches nothing else; the host operations after it gather the product's rows at
  the source indices, scale each by the edge's normalisation and scatter-add them at the destination indices — the
  reference's own aggregation of the reference's own product — and recast the first bias as a one-row matrix.
-/
import proofs.«125847_j27788438405232_1_alg».proof.Proof.ChainA
import proofs.«125847_j27788438405232_1_alg».proof.Proof.Region0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- The first region's output: the reference's product of the node features and the first weights. -/
theorem W4_v30 : W4 m ρ c (Proc.devRef .tc main_v30) = val_main_v30 (F := Ideal) (A0 m c) (A3 m c) := by
  refine (W4_arr m ρ c 2).trans ((Region0.final (V3 m ρ) c).trans ?_)
  show val_main_v30 (F := Ideal) (W3 m ρ c (Proc.devRef .tc main_arg0)) (W3 m ρ c (Proc.devRef .tc main_arg3)) = _
  rw [W3_arg0, W3_arg3]

/-! The region writes its output array only. -/
theorem W4_v3 : W4 m ρ c (Proc.devRef .tc main_v3) = val_main_v3 (F := Ideal) (A1 m c) :=
  (W4_of_ne m ρ c main_v3 (by decide)).trans (W3_v3 m ρ c)
theorem W4_v6 : W4 m ρ c (Proc.devRef .tc main_v6) = val_main_v6 (F := Ideal) (A1 m c) :=
  (W4_of_ne m ρ c main_v6 (by decide)).trans (W3_v6 m ρ c)
theorem W4_v29 : W4 m ρ c (Proc.devRef .tc main_v29) = val_main_v29 (F := Ideal) (A1 m c) :=
  (W4_of_ne m ρ c main_v29 (by decide)).trans (W3_v29 m ρ c)
theorem W4_arg2 : W4 m ρ c (Proc.devRef .tc main_arg2) = (A2 m c) :=
  (W4_of_ne m ρ c main_arg2 (by decide)).trans (W3_arg2 m ρ c)
theorem W4_arg4 : W4 m ρ c (Proc.devRef .tc main_arg4) = (A4 m c) :=
  (W4_of_ne m ρ c main_arg4 (by decide)).trans (W3_arg4 m ρ c)
theorem W4_arg5 : W4 m ρ c (Proc.devRef .tc main_arg5) = (A5 m c) :=
  (W4_of_ne m ρ c main_arg5 (by decide)).trans (W3_arg5 m ρ c)
theorem W4_arg6 : W4 m ρ c (Proc.devRef .tc main_arg6) = (A6 m c) :=
  (W4_of_ne m ρ c main_arg6 (by decide)).trans (W3_arg6 m ρ c)
theorem W4_arg7 : W4 m ρ c (Proc.devRef .tc main_arg7) = (A7 m c) :=
  (W4_of_ne m ρ c main_arg7 (by decide)).trans (W3_arg7 m ρ c)
theorem W4_arg8 : W4 m ρ c (Proc.devRef .tc main_arg8) = (A8 m c) :=
  (W4_of_ne m ρ c main_arg8 (by decide)).trans (W3_arg8 m ρ c)
theorem W4_arg9 : W4 m ρ c (Proc.devRef .tc main_arg9) = (A9 m c) :=
  (W4_of_ne m ρ c main_arg9 (by decide)).trans (W3_arg9 m ρ c)
theorem W4_arg10 : W4 m ρ c (Proc.devRef .tc main_arg10) = (A10 m c) :=
  (W4_of_ne m ρ c main_arg10 (by decide)).trans (W3_arg10 m ρ c)

/-- The aggregated first layer, before bias: the reference's scatter-add of the scaled gathered rows. -/
theorem W5_v43 : W5 m ρ c (Proc.devRef .tc main_v43) = val_main_v43 (F := Ideal) (A0 m c) (A1 m c) (A3 m c) := by
  show StableHlo.after hostOps1 (W4 m ρ c) (Proc.devRef .tc main_v43) = _
  after_all
  rw [W4_v30, W4_v3, W4_v6, W4_v29]
  rfl

/-- The first bias as a one-row matrix. -/
theorem W5_v44 : W5 m ρ c (Proc.devRef .tc main_v44) = shapeCast S1x32 ((A4 m c) : S32.Idx → Elt Ideal .f32) shapeCasts_S32_S1x32 := by
  show StableHlo.after hostOps1 (W4 m ρ c) (Proc.devRef .tc main_v44) = _
  after_all
  rw [W4_arg4]
  rfl

/-! The stretch writes none of the buffers still to be read. -/
theorem W5_v3 : W5 m ρ c (Proc.devRef .tc main_v3) = val_main_v3 (F := Ideal) (A1 m c) := by
  show StableHlo.after hostOps1 (W4 m ρ c) (Proc.devRef .tc main_v3) = _
  after_all
  exact W4_v3 m ρ c
theorem W5_v6 : W5 m ρ c (Proc.devRef .tc main_v6) = val_main_v6 (F := Ideal) (A1 m c) := by
  show StableHlo.after hostOps1 (W4 m ρ c) (Proc.devRef .tc main_v6) = _
  after_all
  exact W4_v6 m ρ c
theorem W5_v29 : W5 m ρ c (Proc.devRef .tc main_v29) = val_main_v29 (F := Ideal) (A1 m c) := by
  show StableHlo.after hostOps1 (W4 m ρ c) (Proc.devRef .tc main_v29) = _
  after_all
  exact W4_v29 m ρ c
theorem W5_arg2 : W5 m ρ c (Proc.devRef .tc main_arg2) = (A2 m c) := by
  show StableHlo.after hostOps1 (W4 m ρ c) (Proc.devRef .tc main_arg2) = _
  after_all
  exact W4_arg2 m ρ c
theorem W5_arg5 : W5 m ρ c (Proc.devRef .tc main_arg5) = (A5 m c) := by
  show StableHlo.after hostOps1 (W4 m ρ c) (Proc.devRef .tc main_arg5) = _
  after_all
  exact W4_arg5 m ρ c
theorem W5_arg6 : W5 m ρ c (Proc.devRef .tc main_arg6) = (A6 m c) := by
  show StableHlo.after hostOps1 (W4 m ρ c) (Proc.devRef .tc main_arg6) = _
  after_all
  exact W4_arg6 m ρ c
theorem W5_arg7 : W5 m ρ c (Proc.devRef .tc main_arg7) = (A7 m c) := by
  show StableHlo.after hostOps1 (W4 m ρ c) (Proc.devRef .tc main_arg7) = _
  after_all
  exact W4_arg7 m ρ c
theorem W5_arg8 : W5 m ρ c (Proc.devRef .tc main_arg8) = (A8 m c) := by
  show StableHlo.after hostOps1 (W4 m ρ c) (Proc.devRef .tc main_arg8) = _
  after_all
  exact W4_arg8 m ρ c
theorem W5_arg9 : W5 m ρ c (Proc.devRef .tc main_arg9) = (A9 m c) := by
  show StableHlo.after hostOps1 (W4 m ρ c) (Proc.devRef .tc main_arg9) = _
  after_all
  exact W4_arg9 m ρ c
theorem W5_arg10 : W5 m ρ c (Proc.devRef .tc main_arg10) = (A10 m c) := by
  show StableHlo.after hostOps1 (W4 m ρ c) (Proc.devRef .tc main_arg10) = _
  after_all
  exact W4_arg10 m ρ c

end Cert.KernelIdeal.Chain

end
-- ==== Proof.Region1.lean ====
/-
  The first layer's bias and rectifier, read off the pipelined region. The region walks the 100000 rows of the
  aggregated features in ten blocks of 10000 rows; at each block the body adds the one bias row to every row of the
  block and takes the maximum with zero. Entry (r, q) of the result depends on entry (r, q) of the input and entry q of
  the bias alone, and a row of a block is a row of the array, so every block is the restriction of one function of the
  two arrays. The ten blocks tile the output, hence the output array ends holding that function.
-/
import proofs.«125847_j27788438405232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block, entry by entry -/

/-- The body's result at row `p`, column `q` of a block: the input there plus the bias at `q`, cut below at zero. The two
    shape casts are of a shape to itself; the broadcast repeats the one bias row. -/
theorem pay_apply (x0 : Vec Ideal S10000x32 .f32) (x1 : Vec Ideal S1x32 .f32) (p : Fin 10000) (q : Fin 32) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcastTo_1b_ab_apply]
  rfl

/-! ## From blocks to the array -/

/-- The whole result as one function of the input array `X` and the bias row `B`. -/
def act (X : S100000x32.Idx → Elt Ideal .f32) (B : S1x32.Idx → Elt Ideal .f32) : S100000x32.Idx → Elt Ideal .f32 :=
  fun i => max (X i + B (ix2 (0 : Fin 1) (i 1))) (Ideal.ofBits .f32 0x00000000#32)

/-- The index maps over the grid: the input block and the output block move together down the rows, one block per
    point; the bias row and the column axis stay put. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What a point writes back is its block of the whole result. -/
theorem flushed_eq (c : Dev nD) (t : Fin cfg1.N) :
    (dat1 V c).flushed 2 t = ((cfg1.win 2).blk t).view.read (Elt Ideal) (act (V c main_v43) (V c main_v44)) := by
  show (cfg1.win 2).cut (grid1.coords t) ((dat1 V c).after 2 t) = _
  rw [after1_2]
  unfold out1_2
  rw [View.canon_unit_zero hz]
  simp only [View.ld_unit_zero (S := S10000x32) hz, View.ld_unit_zero (S := S1x32) hz]
  obtain ⟨e0, e1, e2, e3, e4, e5⟩ := idx_facts t
  funext j
  obtain ⟨p, q, rfl⟩ : ∃ (p : Fin 10000) (q : Fin 32), j = ix2 p q := ⟨j 0, j 1, eq_ix2 j⟩
  show k1_pay1 (iblk1 V c 0 t) (iblk1 V c 1 t) (ix2 p q) = act (V c main_v43) (V c main_v44) (((cfg1.win 2).blk t).view.emb (ix2 p q))
  refine (pay_apply _ _ p q).trans ?_
  have hx : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 10000 + 1 * p.val = win1_2.index t (0 : Fin 2) * 10000 + 1 * p.val; rw [e0]
    | ⟨1, _⟩ => show win1_0.index t (1 : Fin 2) * 32 + 1 * q.val = win1_2.index t (1 : Fin 2) * 32 + 1 * q.val; rw [e1, e5]
  have hb : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 32 + 1 * q.val = win1_2.index t (1 : Fin 2) * 32 + 1 * q.val; rw [e3, e5]
  rw [hx, hb]
  rfl

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v45).slice (win1_2.rect t)).set ↔ _
  rw [View.set_slice_whole, Rect.mem_set_unit]
  exact Iff.rfl

/-- The ten row blocks tile the output: row `r` lies in the block of point `r / 10000`. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨e0, e1, e2, e3, e4, e5⟩ := idx_facts t
  refine ⟨t, flush1_2 t, ?_⟩
  rw [mem_blk]
  intro a
  have ht : t.val = (i 0).val / 10000 := rfl
  match a with
  | ⟨0, _⟩ => show win1_2.index t (0 : Fin 2) * 10000 ≤ (i 0).val ∧ (i 0).val < win1_2.index t (0 : Fin 2) * 10000 + 10000; rw [e4]; omega
  | ⟨1, _⟩ => show win1_2.index t (1 : Fin 2) * 32 ≤ (i 1).val ∧ (i 1).val < win1_2.index t (1 : Fin 2) * 32 + 32; rw [e5]; omega

/-- The output array after the region: the whole result of the two arrays the region finds. -/
theorem final (c : Dev nD) : (dat1 V c).arrAt 2 cfg1.N = act (V c main_v43) (V c main_v44) :=
  (dat1 V c).arrAt_eq_of_cover 2 (act (V c main_v43) (V c main_v44)) (fun t _ => flushed_eq V c t) (cover)

end Cert.KernelIdeal.Region1

end
-- ==== Proof.Region2.lean ====
/-
  The second dense layer's linear map, read off the pipelined region. The region walks the 100000 rows of the first
  layer's activations in ten blocks of 10000 rows; at each block the body multiplies the block by the whole 32 x 32
  weight matrix into a zero accumulator. Entry (r, q) of a block's product is the sum over k of h(r, k) * w(k, q), and a
  row of the block is a row of the array, so every block is the restriction of ONE function of the two arrays: the
  matrix product the reference takes with a single dot_general. The ten blocks tile the output, hence the output array
  ends holding that product.
-/
import proofs.«125847_j27788438405232_1_alg».proof.Proof.Gen.KernelIdeal.Frame
import proofs.«125847_j27788438405232_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block's product, entry by entry -/

/-- Row `p` of the left block and contraction coordinate `k`. -/
abbrev lrow (j : S10000x32.Idx) (k : Fin 32) : S10000x32.Idx := fun a => match a with
  | ⟨0, _⟩ => ⟨(j 0).val, (j 0).isLt⟩
  | ⟨1, _⟩ => ⟨k.val, k.isLt⟩
/-- Contraction coordinate `k` and column `q` of the right operand. -/
abbrev rcol (j : S10000x32.Idx) (k : Fin 32) : S32x32.Idx := fun a => match a with
  | ⟨0, _⟩ => ⟨k.val, k.isLt⟩
  | ⟨1, _⟩ => ⟨(j 1).val, (j 1).isLt⟩

theorem lhs_0 (j : S10000x32.Idx) (q : dot_S10000x32_S32x32_S10000x32_1_0_0_1_n_n.contr.Idx) :
    (dot_S10000x32_S32x32_S10000x32_1_0_0_1_n_n.lhsIdx j q 0).val = (j 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_1 (j : S10000x32.Idx) (q : dot_S10000x32_S32x32_S10000x32_1_0_0_1_n_n.contr.Idx) :
    (dot_S10000x32_S32x32_S10000x32_1_0_0_1_n_n.lhsIdx j q 1).val = (q ⟨0, by decide⟩).val :=
  dot_S10000x32_S32x32_S10000x32_1_0_0_1_n_n.lhsIdx_val_of_single rfl j q
theorem rhs_0 (j : S10000x32.Idx) (q : dot_S10000x32_S32x32_S10000x32_1_0_0_1_n_n.contr.Idx) :
    (dot_S10000x32_S32x32_S10000x32_1_0_0_1_n_n.rhsIdx j q 0).val = (q ⟨0, by decide⟩).val :=
  dot_S10000x32_S32x32_S10000x32_1_0_0_1_n_n.rhsIdx_val_of_single rfl j q
theorem rhs_1 (j : S10000x32.Idx) (q : dot_S10000x32_S32x32_S10000x32_1_0_0_1_n_n.contr.Idx) :
    (dot_S10000x32_S32x32_S10000x32_1_0_0_1_n_n.rhsIdx j q 1).val = (j 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The body's product of a row block with the weight matrix, into a zero accumulator, is at every entry the exact
    sum over the contraction axis: the roundings to bf16 on the way in are the identity on extended reals. -/
theorem pay_apply (x0 : Vec Ideal S10000x32 .f32) (x1 : Vec Ideal S32x32 .f32) (j : S10000x32.Idx) :
    k2_pay1 x0 x1 j = ∑ k : Fin 32, x0 (lrow j k) * x1 (rcol j k) := by
  unfold k2_pay1
  simp only [shapeCast_self, matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx j ((contrEquiv1 dot_S10000x32_S32x32_S10000x32_1_0_0_1_n_n 32 rfl rfl).symm k) = lrow j k := funext fun a => Fin.ext (by
    match a with
    | ⟨0, _⟩ => exact lhs_0 _ _
    | ⟨1, _⟩ => exact (lhs_1 _ _).trans hk)
  have er : dot_S10000x32_S32x32_S10000x32_1_0_0_1_n_n.rhsIdx j ((contrEquiv1 dot_S10000x32_S32x32_S10000x32_1_0_0_1_n_n 32 rfl rfl).symm k) = rcol j k := funext fun a => Fin.ext (by
    match a with
    | ⟨0, _⟩ => exact (rhs_0 _ _).trans hk
    | ⟨1, _⟩ => exact rhs_1 _ _)
  rw [el, er]
  rfl

/-! ## From blocks to the array -/

/-- The whole product of an activation array and the weights, as the reference's own dot_general. -/
abbrev prodOf (H : FVec Ideal S100000x32 .f32) (W : FVec Ideal S32x32 .f32) : FVec Ideal S100000x32 .f32 :=
  Host.dotGeneral (F := Ideal) Cert.ReferenceIdeal.dot_S100000x32_S32x32_S100000x32_1_0_0_1_n_n none H W

/-- That dot_general read at an entry: the sum over the contraction axis (the reference's own read of this operation, with
    the left operand any array). -/
theorem prodOf_apply (H : FVec Ideal S100000x32 .f32) (W : FVec Ideal S32x32 .f32) (i : S100000x32.Idx) :
    prodOf H W i = ∑ k : Fin 32, H (Cert.ReferenceIdeal.ReadP.lidx_main_v48 i k) * W (Cert.ReferenceIdeal.ReadP.ridx_main_v48 i k) := by
  unfold prodOf
  simp only [Host.dotGeneral]
  rw [Ideal.dotGeneral_apply, ← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx i ((contrEquiv1 Cert.ReferenceIdeal.dot_S100000x32_S32x32_S100000x32_1_0_0_1_n_n 32 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x32_S32x32_S100000x32_1_0_0_1_n_n.rhsIdx i ((contrEquiv1 Cert.ReferenceIdeal.dot_S100000x32_S32x32_S100000x32_1_0_0_1_n_n 32 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- The whole product of the two arrays the region finds. -/
abbrev prod (c : Dev nD) : S100000x32.Idx → Elt Ideal .f32 := prodOf (V c main_v45) (V c main_arg5)

/-- The index maps over the grid: the left block and the output block move together down the rows, one block per
    point; the weight matrix and the column axis stay put. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What a point writes back is its block of the whole product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x32) hz]
  obtain ⟨e0, e1, e2, e3, e4, e5⟩ := idx_facts t
  funext j
  show k2_pay1 (iblk2 V c 0 t) (iblk2 V c 1 t) j = prod V c (((cfg2.win 2).blk t).view.emb j)
  refine (pay_apply _ _ j).trans ?_
  unfold prod
  rw [prodOf_apply]
  refine Finset.sum_congr rfl fun k _ => ?_
  have hl : iblk2 V c 0 t (lrow j k) = V c main_v45 (Cert.ReferenceIdeal.ReadP.lidx_main_v48 (((cfg2.win 2).blk t).view.emb j) k) := by
    show V c main_v45 (((cfg2.win 0).blk t).view.emb (lrow j k)) = _
    refine congrArg (V c main_v45) (funext fun a => Fin.ext ?_)
    match a with
    | ⟨0, _⟩ => show win2_0.index t (0 : Fin 2) * 10000 + 1 * (j 0).val = win2_2.index t (0 : Fin 2) * 10000 + 1 * (j 0).val; rw [e0]
    | ⟨1, _⟩ => show win2_0.index t (1 : Fin 2) * 32 + 1 * k.val = k.val; rw [e1]; omega
  have hr : iblk2 V c 1 t (rcol j k) = V c main_arg5 (Cert.ReferenceIdeal.ReadP.ridx_main_v48 (((cfg2.win 2).blk t).view.emb j) k) := by
    show V c main_arg5 (((cfg2.win 1).blk t).view.emb (rcol j k)) = _
    refine congrArg (V c main_arg5) (funext fun a => Fin.ext ?_)
    match a with
    | ⟨0, _⟩ => show win2_1.index t (0 : Fin 2) * 32 + 1 * k.val = k.val; rw [e2]; omega
    | ⟨1, _⟩ => show win2_1.index t (1 : Fin 2) * 32 + 1 * (j 1).val = win2_2.index t (1 : Fin 2) * 32 + 1 * (j 1).val; rw [e3, e5]
  rw [hl, hr]

/-- An index of the output array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- The ten row blocks tile the output: row `r` lies in the block of point `r / 10000`. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  obtain ⟨e0, e1, e2, e3, e4, e5⟩ := idx_facts t
  refine ⟨t, flush2_2 t, ?_⟩
  rw [mem_blk]
  intro a
  have ht : t.val = (i 0).val / 10000 := rfl
  match a with
  | ⟨0, _⟩ => show win2_2.index t (0 : Fin 2) * 10000 ≤ (i 0).val ∧ (i 0).val < win2_2.index t (0 : Fin 2) * 10000 + 10000; rw [e4]; omega
  | ⟨1, _⟩ => show win2_2.index t (1 : Fin 2) * 32 ≤ (i 1).val ∧ (i 1).val < win2_2.index t (1 : Fin 2) * 32 + 32; rw [e5]; omega

/-- The output array after the region: the whole product of the two arrays the region finds. -/
theorem final (c : Dev nD) : (dat2 V c).arrAt 2 cfg2.N = prod V c :=
  (dat2 V c).arrAt_eq_of_cover 2 (prod V c) (fun t _ => flushed_eq V c t) (cover)

end Cert.KernelIdeal.Region2

end
-- ==== Proof.ChainC.lean ====
/-
  The first layer's activation and the second layer's linear map. The second region adds the bias row to every row of
  the aggregated features and cuts below at zero, which is the reference's bias broadcast, addition and rectifier; the
  third region multiplies the result by the second weights, which is the reference's second dot_general.
-/
import proofs.«125847_j27788438405232_1_alg».proof.Proof.ChainB
import proofs.«125847_j27788438405232_1_alg».proof.Proof.Region1
import proofs.«125847_j27788438405232_1_alg».proof.Proof.Region2
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- A bias of 32 entries, recast as a one-row matrix by the kernel's program and spread over the rows by the region, is
    the reference's two broadcasts of the same bias; the zero the region cuts at is the reference's broadcast zero. Entry by entry
    both sides are the input entry plus the bias at the column, cut below at zero. -/
theorem act1_eq (X : FVec Ideal S100000x32 .f32) (b : FVec Ideal S32 .f32) :
    Region1.act X (shapeCast S1x32 b shapeCasts_S32_S1x32) = maximumf (F := Ideal) (addf X (val_main_v45 (F := Ideal) b)) (val_main_call1_v0 (F := Ideal)) := by
  funext i
  have hb : shapeCast S1x32 b shapeCasts_S32_S1x32 (ix2 (0 : Fin 1) (i 1)) = b (ix1 (i 1)) :=
    shapeCast_a_1a_apply b shapeCasts_S32_S1x32 (0 : Fin 1) (i 1)
  have hi : idx_main_v44 (idx_main_v45 i) = ix1 (i 1) := funext fun a => by
    match a with
    | ⟨0, _⟩ => rfl
  unfold Region1.act
  rw [hb, maximumf_apply, addf_apply, val_main_v45_apply, val_main_v44_apply, hi]
  rfl

/-- The second region's output: the reference's first-layer activations. -/
theorem W6_v45 : W6 m ρ c (Proc.devRef .tc main_v45) = val_main_v47 (F := Ideal) (A0 m c) (A1 m c) (A3 m c) (A4 m c) := by
  refine (W6_arr m ρ c 2).trans ((Region1.final (V5 m ρ) c).trans ?_)
  show Region1.act (W5 m ρ c (Proc.devRef .tc main_v43)) (W5 m ρ c (Proc.devRef .tc main_v44)) = _
  rw [W5_v43, W5_v44]
  exact act1_eq _ _

/-! The region writes its output array only. -/
theorem W6_v3 : W6 m ρ c (Proc.devRef .tc main_v3) = val_main_v3 (F := Ideal) (A1 m c) :=
  (W6_of_ne m ρ c main_v3 (by decide)).trans (W5_v3 m ρ c)
theorem W6_v6 : W6 m ρ c (Proc.devRef .tc main_v6) = val_main_v6 (F := Ideal) (A1 m c) :=
  (W6_of_ne m ρ c main_v6 (by decide)).trans (W5_v6 m ρ c)
theorem W6_v29 : W6 m ρ c (Proc.devRef .tc main_v29) = val_main_v29 (F := Ideal) (A1 m c) :=
  (W6_of_ne m ρ c main_v29 (by decide)).trans (W5_v29 m ρ c)
theorem W6_arg2 : W6 m ρ c (Proc.devRef .tc main_arg2) = (A2 m c) :=
  (W6_of_ne m ρ c main_arg2 (by decide)).trans (W5_arg2 m ρ c)
theorem W6_arg5 : W6 m ρ c (Proc.devRef .tc main_arg5) = (A5 m c) :=
  (W6_of_ne m ρ c main_arg5 (by decide)).trans (W5_arg5 m ρ c)
theorem W6_arg6 : W6 m ρ c (Proc.devRef .tc main_arg6) = (A6 m c) :=
  (W6_of_ne m ρ c main_arg6 (by decide)).trans (W5_arg6 m ρ c)
theorem W6_arg7 : W6 m ρ c (Proc.devRef .tc main_arg7) = (A7 m c) :=
  (W6_of_ne m ρ c main_arg7 (by decide)).trans (W5_arg7 m ρ c)
theorem W6_arg8 : W6 m ρ c (Proc.devRef .tc main_arg8) = (A8 m c) :=
  (W6_of_ne m ρ c main_arg8 (by decide)).trans (W5_arg8 m ρ c)
theorem W6_arg9 : W6 m ρ c (Proc.devRef .tc main_arg9) = (A9 m c) :=
  (W6_of_ne m ρ c main_arg9 (by decide)).trans (W5_arg9 m ρ c)
theorem W6_arg10 : W6 m ρ c (Proc.devRef .tc main_arg10) = (A10 m c) :=
  (W6_of_ne m ρ c main_arg10 (by decide)).trans (W5_arg10 m ρ c)

/-- The third region's output: the reference's product of the activations and the second weights. -/
theorem W7_v46 : W7 m ρ c (Proc.devRef .tc main_v46) = val_main_v48 (F := Ideal) (A0 m c) (A1 m c) (A3 m c) (A4 m c) (A5 m c) := by
  refine (W7_arr m ρ c 2).trans ((Region2.final (V6 m ρ) c).trans ?_)
  show Region2.prodOf (W6 m ρ c (Proc.devRef .tc main_v45)) (W6 m ρ c (Proc.devRef .tc main_arg5)) = _
  rw [W6_v45, W6_arg5]
  rfl

/-! The region writes its output array only. -/
theorem W7_v3 : W7 m ρ c (Proc.devRef .tc main_v3) = val_main_v3 (F := Ideal) (A1 m c) :=
  (W7_of_ne m ρ c main_v3 (by decide)).trans (W6_v3 m ρ c)
theorem W7_v6 : W7 m ρ c (Proc.devRef .tc main_v6) = val_main_v6 (F := Ideal) (A1 m c) :=
  (W7_of_ne m ρ c main_v6 (by decide)).trans (W6_v6 m ρ c)
theorem W7_v29 : W7 m ρ c (Proc.devRef .tc main_v29) = val_main_v29 (F := Ideal) (A1 m c) :=
  (W7_of_ne m ρ c main_v29 (by decide)).trans (W6_v29 m ρ c)
theorem W7_arg2 : W7 m ρ c (Proc.devRef .tc main_arg2) = (A2 m c) :=
  (W7_of_ne m ρ c main_arg2 (by decide)).trans (W6_arg2 m ρ c)
theorem W7_arg6 : W7 m ρ c (Proc.devRef .tc main_arg6) = (A6 m c) :=
  (W7_of_ne m ρ c main_arg6 (by decide)).trans (W6_arg6 m ρ c)
theorem W7_arg7 : W7 m ρ c (Proc.devRef .tc main_arg7) = (A7 m c) :=
  (W7_of_ne m ρ c main_arg7 (by decide)).trans (W6_arg7 m ρ c)
theorem W7_arg8 : W7 m ρ c (Proc.devRef .tc main_arg8) = (A8 m c) :=
  (W7_of_ne m ρ c main_arg8 (by decide)).trans (W6_arg8 m ρ c)
theorem W7_arg9 : W7 m ρ c (Proc.devRef .tc main_arg9) = (A9 m c) :=
  (W7_of_ne m ρ c main_arg9 (by decide)).trans (W6_arg9 m ρ c)
theorem W7_arg10 : W7 m ρ c (Proc.devRef .tc main_arg10) = (A10 m c) :=
  (W7_of_ne m ρ c main_arg10 (by decide)).trans (W6_arg10 m ρ c)

end Cert.KernelIdeal.Chain

end
-- ==== Proof.Region3.lean ====
/-
  The second layer's bias, read off the pipelined region. The region walks the 100000 rows of the aggregated features
  in ten blocks of 10000 rows; at each block the body adds the one bias row to every row of the block. Entry (r, q) of
  the result depends on entry (r, q) of the input and entry q of the bias alone, and a row of a block is a row of the
  array, so every block is the restriction of one function of the two arrays. The ten blocks tile the output, hence
  the output array ends holding that function.
-/
import proofs.«125847_j27788438405232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block, entry by entry -/

/-- The body's result at row `p`, column `q` of a block: the input there plus the bias at `q`. The two
    shape casts are of a shape to itself; the broadcast repeats the one bias row. -/
theorem pay_apply (x0 : Vec Ideal S10000x32 .f32) (x1 : Vec Ideal S1x32 .f32) (p : Fin 10000) (q : Fin 32) :
    k3_pay1 x0 x1 (ix2 p q) = x0 (ix2 p q) + x1 (ix2 (0 : Fin 1) q) := by
  unfold k3_pay1
  simp only [shapeCast_self]
  rw [addf_apply, broadcastTo_1b_ab_apply]

/-! ## From blocks to the array -/

/-- The whole result as one function of the input array `X` and the bias row `B`. -/
def act (X : S100000x32.Idx → Elt Ideal .f32) (B : S1x32.Idx → Elt Ideal .f32) : S100000x32.Idx → Elt Ideal .f32 :=
  fun i => X i + B (ix2 (0 : Fin 1) (i 1))

/-- The index maps over the grid: the input block and the output block move together down the rows, one block per
    point; the bias row and the column axis stay put. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What a point writes back is its block of the whole result. -/
theorem flushed_eq (c : Dev nD) (t : Fin cfg3.N) :
    (dat3 V c).flushed 2 t = ((cfg3.win 2).blk t).view.read (Elt Ideal) (act (V c main_v59) (V c main_v60)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨e0, e1, e2, e3, e4, e5⟩ := idx_facts t
  funext j
  obtain ⟨p, q, rfl⟩ : ∃ (p : Fin 10000) (q : Fin 32), j = ix2 p q := ⟨j 0, j 1, eq_ix2 j⟩
  show k3_pay1 (iblk3 V c 0 t) (iblk3 V c 1 t) (ix2 p q) = act (V c main_v59) (V c main_v60) (((cfg3.win 2).blk t).view.emb (ix2 p q))
  refine (pay_apply _ _ p q).trans ?_
  have hx : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 10000 + 1 * p.val = win3_2.index t (0 : Fin 2) * 10000 + 1 * p.val; rw [e0]
    | ⟨1, _⟩ => show win3_0.index t (1 : Fin 2) * 32 + 1 * q.val = win3_2.index t (1 : Fin 2) * 32 + 1 * q.val; rw [e1, e5]
  have hb : iblk3 V c 1 t (ix2 (0 : Fin 1) q) = V c main_v60 (ix2 (0 : Fin 1) ((((cfg3.win 2).blk t).view.emb (ix2 p q)) 1)) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 32 + 1 * q.val = win3_2.index t (1 : Fin 2) * 32 + 1 * q.val; rw [e3, e5]
  rw [hx, hb]
  rfl

/-- An index of the output array is in point `t`'s block iff each coordinate is in the block's range on its axis. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v61).slice (win3_2.rect t)).set ↔ _
  rw [View.set_slice_whole, Rect.mem_set_unit]
  exact Iff.rfl

/-- The ten row blocks tile the output: row `r` lies in the block of point `r / 10000`. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  let t : Fin cfg3.N := ⟨(i 0).val / 10000, by rw [hN]; omega⟩
  obtain ⟨e0, e1, e2, e3, e4, e5⟩ := idx_facts t
  refine ⟨t, flush3_2 t, ?_⟩
  rw [mem_blk]
  intro a
  have ht : t.val = (i 0).val / 10000 := rfl
  match a with
  | ⟨0, _⟩ => show win3_2.index t (0 : Fin 2) * 10000 ≤ (i 0).val ∧ (i 0).val < win3_2.index t (0 : Fin 2) * 10000 + 10000; rw [e4]; omega
  | ⟨1, _⟩ => show win3_2.index t (1 : Fin 2) * 32 ≤ (i 1).val ∧ (i 1).val < win3_2.index t (1 : Fin 2) * 32 + 32; rw [e5]; omega

/-- The output array after the region: the whole result of the two arrays the region finds. -/
theorem final (c : Dev nD) : (dat3 V c).arrAt 2 cfg3.N = act (V c main_v59) (V c main_v60) :=
  (dat3 V c).arrAt_eq_of_cover 2 (act (V c main_v59) (V c main_v60)) (fun t _ => flushed_eq V c t) (cover)

end Cert.KernelIdeal.Region3

end
-- ==== Proof.ChainD.lean ====
/-
  The second layer's aggregation and bias. The host operations after the third region gather the product's rows at the
  source indices, scale them by the normalisation and scatter-add them at the destination indices, exactly as the
  reference does, and recast the second bias as a one-row matrix; the fourth region adds that row to every row.
-/
import proofs.«125847_j27788438405232_1_alg».proof.Proof.ChainC
import proofs.«125847_j27788438405232_1_alg».proof.Proof.Region3
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- The aggregated second layer, before bias. -/
theorem W8_v59 : W8 m ρ c (Proc.devRef .tc main_v59) = val_main_v61 (F := Ideal) (A0 m c) (A1 m c) (A3 m c) (A4 m c) (A5 m c) := by
  show StableHlo.after hostOps3 (W7 m ρ c) (Proc.devRef .tc main_v59) = _
  after_all
  rw [W7_v46, W7_v3, W7_v6, W7_v29]
  rfl

/-- The second bias as a one-row matrix. -/
theorem W8_v60 : W8 m ρ c (Proc.devRef .tc main_v60) = shapeCast S1x32 ((A6 m c) : S32.Idx → Elt Ideal .f32) shapeCasts_S32_S1x32 := by
  show StableHlo.after hostOps3 (W7 m ρ c) (Proc.devRef .tc main_v60) = _
  after_all
  rw [W7_arg6]
  rfl

/-! The stretch writes none of the buffers still to be read. -/
theorem W8_arg2 : W8 m ρ c (Proc.devRef .tc main_arg2) = (A2 m c) := by
  show StableHlo.after hostOps3 (W7 m ρ c) (Proc.devRef .tc main_arg2) = _
  after_all
  exact W7_arg2 m ρ c
theorem W8_arg7 : W8 m ρ c (Proc.devRef .tc main_arg7) = (A7 m c) := by
  show StableHlo.after hostOps3 (W7 m ρ c) (Proc.devRef .tc main_arg7) = _
  after_all
  exact W7_arg7 m ρ c
theorem W8_arg8 : W8 m ρ c (Proc.devRef .tc main_arg8) = (A8 m c) := by
  show StableHlo.after hostOps3 (W7 m ρ c) (Proc.devRef .tc main_arg8) = _
  after_all
  exact W7_arg8 m ρ c
theorem W8_arg9 : W8 m ρ c (Proc.devRef .tc main_arg9) = (A9 m c) := by
  show StableHlo.after hostOps3 (W7 m ρ c) (Proc.devRef .tc main_arg9) = _
  after_all
  exact W7_arg9 m ρ c
theorem W8_arg10 : W8 m ρ c (Proc.devRef .tc main_arg10) = (A10 m c) := by
  show StableHlo.after hostOps3 (W7 m ρ c) (Proc.devRef .tc main_arg10) = _
  after_all
  exact W7_arg10 m ρ c

/-- A bias of 32 entries, recast as a one-row matrix by the kernel's program and spread over the rows by the region, is
    the reference's two broadcasts of the same bias; Entry by entry
    both sides are the input entry plus the bias at the column. -/
theorem act3_eq (X : FVec Ideal S100000x32 .f32) (b : FVec Ideal S32 .f32) :
    Region3.act X (shapeCast S1x32 b shapeCasts_S32_S1x32) = addf (F := Ideal) X (val_main_v63 (F := Ideal) b) := by
  funext i
  have hb : shapeCast S1x32 b shapeCasts_S32_S1x32 (ix2 (0 : Fin 1) (i 1)) = b (ix1 (i 1)) :=
    shapeCast_a_1a_apply b shapeCasts_S32_S1x32 (0 : Fin 1) (i 1)
  have hi : idx_main_v62 (idx_main_v63 i) = ix1 (i 1) := funext fun a => by
    match a with
    | ⟨0, _⟩ => rfl
  unfold Region3.act
  rw [hb, addf_apply, val_main_v63_apply, val_main_v62_apply, hi]
  rfl

/-- The fourth region's output: the reference's second-layer node features. -/
theorem W9_v61 : W9 m ρ c (Proc.devRef .tc main_v61) = val_main_v64 (F := Ideal) (A0 m c) (A1 m c) (A3 m c) (A4 m c) (A5 m c) (A6 m c) := by
  refine (W9_arr m ρ c 2).trans ((Region3.final (V8 m ρ) c).trans ?_)
  show Region3.act (W8 m ρ c (Proc.devRef .tc main_v59)) (W8 m ρ c (Proc.devRef .tc main_v60)) = _
  rw [W8_v59, W8_v60]
  exact act3_eq _ _

/-! The region writes its output array only. -/
theorem W9_arg2 : W9 m ρ c (Proc.devRef .tc main_arg2) = (A2 m c) :=
  (W9_of_ne m ρ c main_arg2 (by decide)).trans (W8_arg2 m ρ c)
theorem W9_arg7 : W9 m ρ c (Proc.devRef .tc main_arg7) = (A7 m c) :=
  (W9_of_ne m ρ c main_arg7 (by decide)).trans (W8_arg7 m ρ c)
theorem W9_arg8 : W9 m ρ c (Proc.devRef .tc main_arg8) = (A8 m c) :=
  (W9_of_ne m ρ c main_arg8 (by decide)).trans (W8_arg8 m ρ c)
theorem W9_arg9 : W9 m ρ c (Proc.devRef .tc main_arg9) = (A9 m c) :=
  (W9_of_ne m ρ c main_arg9 (by decide)).trans (W8_arg9 m ρ c)
theorem W9_arg10 : W9 m ρ c (Proc.devRef .tc main_arg10) = (A10 m c) :=
  (W9_of_ne m ρ c main_arg10 (by decide)).trans (W8_arg10 m ρ c)

end Cert.KernelIdeal.Chain

end
-- ==== Proof.Region4.lean ====
/-
  The two-layer head over the pooled graph embeddings, read off the last region. The grid has one point and every
  window's block is its whole array, so what the one point writes back is the body's result on the arrays themselves:
  the 256 x 32 embeddings times the 32 x 32 weights plus a bias row, cut below at zero, times the 32 x 1 weights plus a
  bias, through the logistic function. Both products go into zero accumulators and their roundings to bf16 on the way
  in are the identity on extended reals, so each entry is an exact sum over the contraction axis.
-/
import proofs.«125847_j27788438405232_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two products read at an entry -/

/-- Row of the left operand and contraction coordinate `k`. -/
abbrev lrowA (j : S256x32.Idx) (k : Fin 32) : S256x32.Idx := fun a => match a with
  | ⟨0, _⟩ => ⟨(j 0).val, (j 0).isLt⟩
  | ⟨1, _⟩ => ⟨k.val, k.isLt⟩
/-- Contraction coordinate `k` and column of the right operand. -/
abbrev rcolA (j : S256x32.Idx) (k : Fin 32) : S32x32.Idx := fun a => match a with
  | ⟨0, _⟩ => ⟨k.val, k.isLt⟩
  | ⟨1, _⟩ => ⟨(j 1).val, (j 1).isLt⟩

theorem lhsA_0 (j : S256x32.Idx) (q : dot_S256x32_S32x32_S256x32_1_0_0_1_n_n.contr.Idx) :
    (dot_S256x32_S32x32_S256x32_1_0_0_1_n_n.lhsIdx j q 0).val = (j 0).val := by
  unfold DotDims.lhsIdx
  rw [dif_neg (show ¬(0 : Fin S256x32.rank) ∈ dot_S256x32_S32x32_S256x32_1_0_0_1_n_n.lhsBatch by decide), dif_pos (show (0 : Fin S256x32.rank) ∈ dot_S256x32_S32x32_S256x32_1_0_0_1_n_n.lhsNonContracting by decide)]
  rfl
theorem lhsA_1 (j : S256x32.Idx) (q : dot_S256x32_S32x32_S256x32_1_0_0_1_n_n.contr.Idx) :
    (dot_S256x32_S32x32_S256x32_1_0_0_1_n_n.lhsIdx j q 1).val = (q ⟨0, by decide⟩).val :=
  dot_S256x32_S32x32_S256x32_1_0_0_1_n_n.lhsIdx_val_of_single rfl j q
theorem rhsA_0 (j : S256x32.Idx) (q : dot_S256x32_S32x32_S256x32_1_0_0_1_n_n.contr.Idx) :
    (dot_S256x32_S32x32_S256x32_1_0_0_1_n_n.rhsIdx j q 0).val = (q ⟨0, by decide⟩).val :=
  dot_S256x32_S32x32_S256x32_1_0_0_1_n_n.rhsIdx_val_of_single rfl j q
theorem rhsA_1 (j : S256x32.Idx) (q : dot_S256x32_S32x32_S256x32_1_0_0_1_n_n.contr.Idx) :
    (dot_S256x32_S32x32_S256x32_1_0_0_1_n_n.rhsIdx j q 1).val = (j 1).val := by
  unfold DotDims.rhsIdx
  rw [dif_neg (show ¬(1 : Fin S32x32.rank) ∈ dot_S256x32_S32x32_S256x32_1_0_0_1_n_n.rhsBatch by decide), dif_pos (show (1 : Fin S32x32.rank) ∈ dot_S256x32_S32x32_S256x32_1_0_0_1_n_n.rhsNonContracting by decide)]
  rfl

/-- A product into a zero accumulator, read at an entry: the exact sum over the one contraction axis. -/
theorem mmA_apply {φ₁ φ₂ : FTy} (l : FVec Ideal S256x32 φ₁) (r : FVec Ideal S32x32 φ₂) (j : S256x32.Idx) :
    matmul dot_S256x32_S32x32_S256x32_1_0_0_1_n_n none l r (constant S256x32 .f32 0x00000000#32) j = ∑ k : Fin 32, l (lrowA j k) * r (rcolA j k) := by
  simp only [matmul]
  rw [Ideal.matmul_constant_zero_apply, ← Equiv.sum_comp (contrEquiv1 dot_S256x32_S32x32_S256x32_1_0_0_1_n_n 32 rfl rfl).symm]
  refine Finset.sum_congr rfl fun k _ => ?_
  have hk := contrEquiv1_symm_val dot_S256x32_S32x32_S256x32_1_0_0_1_n_n 32 rfl rfl k
  have el : dot_S256x32_S32x32_S256x32_1_0_0_1_n_n.lhsIdx j ((contrEquiv1 dot_S256x32_S32x32_S256x32_1_0_0_1_n_n 32 rfl rfl).symm k) = lrowA j k := funext fun a => Fin.ext (by
    match a with
    | ⟨0, _⟩ => exact lhsA_0 _ _
    | ⟨1, _⟩ => exact (lhsA_1 _ _).trans hk)
  have er : dot_S256x32_S32x32_S256x32_1_0_0_1_n_n.rhsIdx j ((contrEquiv1 dot_S256x32_S32x32_S256x32_1_0_0_1_n_n 32 rfl rfl).symm k) = rcolA j k := funext fun a => Fin.ext (by
    match a with
    | ⟨0, _⟩ => exact (rhsA_0 _ _).trans hk
    | ⟨1, _⟩ => exact rhsA_1 _ _)
  rw [el, er]

/-- Row of the left operand and contraction coordinate `k`. -/
abbrev lrowB (j : S256x1.Idx) (k : Fin 32) : S256x32.Idx := fun a => match a with
  | ⟨0, _⟩ => ⟨(j 0).val, (j 0).isLt⟩
  | ⟨1, _⟩ => ⟨k.val, k.isLt⟩
/-- Contraction coordinate `k` and column of the right operand. -/
abbrev rcolB (j : S256x1.Idx) (k : Fin 32) : S32x1.Idx := fun a => match a with
  | ⟨0, _⟩ => ⟨k.val, k.isLt⟩
  | ⟨1, _⟩ => ⟨(j 1).val, (j 1).isLt⟩

theorem lhsB_0 (j : S256x1.Idx) (q : dot_S256x32_S32x1_S256x1_1_0_0_1_n_n.contr.Idx) :
    (dot_S256x32_S32x1_S256x1_1_0_0_1_n_n.lhsIdx j q 0).val = (j 0).val := by
  unfold DotDims.lhsIdx
  rw [dif_neg (show ¬(0 : Fin S256x32.rank) ∈ dot_S256x32_S32x1_S256x1_1_0_0_1_n_n.lhsBatch by decide), dif_pos (show (0 : Fin S256x32.rank) ∈ dot_S256x32_S32x1_S256x1_1_0_0_1_n_n.lhsNonContracting by decide)]
  rfl
theorem lhsB_1 (j : S256x1.Idx) (q : dot_S256x32_S32x1_S256x1_1_0_0_1_n_n.contr.Idx) :
    (dot_S256x32_S32x1_S256x1_1_0_0_1_n_n.lhsIdx j q 1).val = (q ⟨0, by decide⟩).val :=
  dot_S256x32_S32x1_S256x1_1_0_0_1_n_n.lhsIdx_val_of_single rfl j q
theorem rhsB_0 (j : S256x1.Idx) (q : dot_S256x32_S32x1_S256x1_1_0_0_1_n_n.contr.Idx) :
    (dot_S256x32_S32x1_S256x1_1_0_0_1_n_n.rhsIdx j q 0).val = (q ⟨0, by decide⟩).val :=
  dot_S256x32_S32x1_S256x1_1_0_0_1_n_n.rhsIdx_val_of_single rfl j q
theorem rhsB_1 (j : S256x1.Idx) (q : dot_S256x32_S32x1_S256x1_1_0_0_1_n_n.contr.Idx) :
    (dot_S256x32_S32x1_S256x1_1_0_0_1_n_n.rhsIdx j q 1).val = (j 1).val := by
  unfold DotDims.rhsIdx
  rw [dif_neg (show ¬(1 : Fin S32x1.rank) ∈ dot_S256x32_S32x1_S256x1_1_0_0_1_n_n.rhsBatch by decide), dif_pos (show (1 : Fin S32x1.rank) ∈ dot_S256x32_S32x1_S256x1_1_0_0_1_n_n.rhsNonContracting by decide)]
  rfl

/-- A product into a zero accumulator, read at an entry: the exact sum over the one contraction axis. -/
theorem mmB_apply {φ₁ φ₂ : FTy} (l : FVec Ideal S256x32 φ₁) (r : FVec Ideal S32x1 φ₂) (j : S256x1.Idx) :
    matmul dot_S256x32_S32x1_S256x1_1_0_0_1_n_n none l r (constant S256x1 .f32 0x00000000#32) j = ∑ k : Fin 32, l (lrowB j k) * r (rcolB j k) := by
  simp only [matmul]
  rw [Ideal.matmul_constant_zero_apply, ← Equiv.sum_comp (contrEquiv1 dot_S256x32_S32x1_S256x1_1_0_0_1_n_n 32 rfl rfl).symm]
  refine Finset.sum_congr rfl fun k _ => ?_
  have hk := contrEquiv1_symm_val dot_S256x32_S32x1_S256x1_1_0_0_1_n_n 32 rfl rfl k
  have el : dot_S256x32_S32x1_S256x1_1_0_0_1_n_n.lhsIdx j ((contrEquiv1 dot_S256x32_S32x1_S256x1_1_0_0_1_n_n 32 rfl rfl).symm k) = lrowB j k := funext fun a => Fin.ext (by
    match a with
    | ⟨0, _⟩ => exact lhsB_0 _ _
    | ⟨1, _⟩ => exact (lhsB_1 _ _).trans hk)
  have er : dot_S256x32_S32x1_S256x1_1_0_0_1_n_n.rhsIdx j ((contrEquiv1 dot_S256x32_S32x1_S256x1_1_0_0_1_n_n 32 rfl rfl).symm k) = rcolB j k := funext fun a => Fin.ext (by
    match a with
    | ⟨0, _⟩ => exact (rhsB_0 _ _).trans hk
    | ⟨1, _⟩ => exact rhsB_1 _ _)
  rw [el, er]

/-! ## The body as one function of its five arrays -/

/-- The hidden layer: embeddings times weights plus the bias row, cut below at zero. -/
def hidden (P : S256x32.Idx → Elt Ideal .f32) (W1 : S32x32.Idx → Elt Ideal .f32) (B1 : S1x32.Idx → Elt Ideal .f32) :
    S256x32.Idx → Elt Ideal .f32 :=
  fun i => max ((∑ k : Fin 32, P (lrowA i k) * W1 (rcolA i k)) + B1 (ix2 (0 : Fin 1) (i 1))) (Ideal.ofBits .f32 0x00000000#32)

/-- The output: the hidden layer times the second weights plus its bias, through the logistic function. -/
def head (P : S256x32.Idx → Elt Ideal .f32) (W1 : S32x32.Idx → Elt Ideal .f32) (B1 : S1x32.Idx → Elt Ideal .f32)
    (W2 : S32x1.Idx → Elt Ideal .f32) (B2 : S1x1.Idx → Elt Ideal .f32) : S256x1.Idx → Elt Ideal .f32 :=
  fun i => Ideal.logistic ((∑ k : Fin 32, hidden P W1 B1 (lrowB i k) * W2 (rcolB i k)) + B2 (ix2 (0 : Fin 1) (i 1)))

/-- The body's hidden value at an entry. -/
theorem hid_apply (v0 : FVec Ideal S256x32 .f32) (v3 : FVec Ideal S32x32 .f32) (v6 : FVec Ideal S1x32 .f32) (i : S256x32.Idx) :
    maximumf (F := Ideal) (addf (matmul dot_S256x32_S32x32_S256x32_1_0_0_1_n_n none (truncf .bf16 v0 bitsLt_bf16_f32) (truncf .bf16 v3 bitsLt_bf16_f32) (constant S256x32 .f32 0x00000000#32))
        (broadcastTo S256x32 v6 broadcasts_S1x32_S256x32)) (broadcast S256x32 (Scalar.ofBits .f32 0x00000000#32)) i
      = hidden v0 v3 v6 i := by
  obtain ⟨a, b, rfl⟩ : ∃ (a : Fin 256) (b : Fin 32), i = ix2 a b := ⟨i 0, i 1, eq_ix2 i⟩
  rw [maximumf_apply, addf_apply, mmA_apply, broadcastTo_1b_ab_apply]
  rfl

/-- The body's payload is `head` of the five loaded arrays. -/
theorem pay_apply (v0 : Vec Ideal S256x32 .f32) (v3 : Vec Ideal S32x32 .f32) (v6 : Vec Ideal S1x32 .f32)
    (v13 : Vec Ideal S32x1 .f32) (v16 : Vec Ideal S1x1 .f32) (j : S256x1.Idx) :
    k4_pay1 v0 v3 v6 v13 v16 j = head v0 v3 v6 v13 v16 j := by
  obtain ⟨p, c, rfl⟩ : ∃ (p : Fin 256) (c : Fin 1), j = ix2 p c := ⟨j 0, j 1, eq_ix2 j⟩
  unfold k4_pay1
  simp only [shapeCast_self]
  unfold head
  refine congrArg Ideal.logistic ?_
  rw [addf_apply, mmB_apply, broadcastTo_1b_ab_apply]
  refine congrArg (· + v16 (ix2 (0 : Fin 1) c)) (Finset.sum_congr rfl fun k _ => ?_)
  exact congrArg (· * v13 (rcolB (ix2 p c) k)) (hid_apply v0 v3 v6 (lrowB (ix2 p c) k))

/-! ## From the one block to the array -/

/-- Every window's one block sits at the origin. -/
theorem idx_facts : ∀ t : Fin cfg4.N, (∀ a : Fin 2, win4_0.index t a = 0) ∧ (∀ a : Fin 2, win4_1.index t a = 0)
    ∧ (∀ a : Fin 2, win4_2.index t a = 0) ∧ (∀ a : Fin 2, win4_3.index t a = 0) ∧ (∀ a : Fin 2, win4_4.index t a = 0)
    ∧ (∀ a : Fin 2, win4_5.index t a = 0) :=
  (by decide +kernel : ∀ t : Fin grid4.N, _)

/-- A whole-array block at the origin reads its array: window by window. -/

theorem blk0_eq (c : Dev nD) (t : Fin cfg4.N) : iblk4 V c 0 t = V c main_v73 := by
  obtain ⟨e0, e1, e2, e3, e4, e5⟩ := idx_facts t
  funext y
  show V c main_v73 (((cfg4.win 0).blk t).view.emb y) = _
  refine congrArg (V c main_v73) (funext fun a => Fin.ext ?_)
  match a with
  | ⟨0, _⟩ => show win4_0.index t (0 : Fin 2) * 256 + 1 * (y 0).val = (y 0).val; rw [e0 0]; omega
  | ⟨1, _⟩ => show win4_0.index t (1 : Fin 2) * 32 + 1 * (y 1).val = (y 1).val; rw [e0 1]; omega

theorem blk1_eq (c : Dev nD) (t : Fin cfg4.N) : iblk4 V c 1 t = V c main_arg7 := by
  obtain ⟨e0, e1, e2, e3, e4, e5⟩ := idx_facts t
  funext y
  show V c main_arg7 (((cfg4.win 1).blk t).view.emb y) = _
  refine congrArg (V c main_arg7) (funext fun a => Fin.ext ?_)
  match a with
  | ⟨0, _⟩ => show win4_1.index t (0 : Fin 2) * 32 + 1 * (y 0).val = (y 0).val; rw [e1 0]; omega
  | ⟨1, _⟩ => show win4_1.index t (1 : Fin 2) * 32 + 1 * (y 1).val = (y 1).val; rw [e1 1]; omega

theorem blk2_eq (c : Dev nD) (t : Fin cfg4.N) : iblk4 V c 2 t = V c main_v74 := by
  obtain ⟨e0, e1, e2, e3, e4, e5⟩ := idx_facts t
  funext y
  show V c main_v74 (((cfg4.win 2).blk t).view.emb y) = _
  refine congrArg (V c main_v74) (funext fun a => Fin.ext ?_)
  match a with
  | ⟨0, _⟩ => show win4_2.index t (0 : Fin 2) * 1 + 1 * (y 0).val = (y 0).val; rw [e2 0]; omega
  | ⟨1, _⟩ => show win4_2.index t (1 : Fin 2) * 32 + 1 * (y 1).val = (y 1).val; rw [e2 1]; omega

theorem blk3_eq (c : Dev nD) (t : Fin cfg4.N) : iblk4 V c 3 t = V c main_arg9 := by
  obtain ⟨e0, e1, e2, e3, e4, e5⟩ := idx_facts t
  funext y
  show V c main_arg9 (((cfg4.win 3).blk t).view.emb y) = _
  refine congrArg (V c main_arg9) (funext fun a => Fin.ext ?_)
  match a with
  | ⟨0, _⟩ => show win4_3.index t (0 : Fin 2) * 32 + 1 * (y 0).val = (y 0).val; rw [e3 0]; omega
  | ⟨1, _⟩ => show win4_3.index t (1 : Fin 2) * 1 + 1 * (y 1).val = (y 1).val; rw [e3 1]; omega

theorem blk4_eq (c : Dev nD) (t : Fin cfg4.N) : iblk4 V c 4 t = V c main_v75 := by
  obtain ⟨e0, e1, e2, e3, e4, e5⟩ := idx_facts t
  funext y
  show V c main_v75 (((cfg4.win 4).blk t).view.emb y) = _
  refine congrArg (V c main_v75) (funext fun a => Fin.ext ?_)
  match a with
  | ⟨0, _⟩ => show win4_4.index t (0 : Fin 2) * 1 + 1 * (y 0).val = (y 0).val; rw [e4 0]; omega
  | ⟨1, _⟩ => show win4_4.index t (1 : Fin 2) * 1 + 1 * (y 1).val = (y 1).val; rw [e4 1]; omega

/-- An entry of the output's one block sits at the same place in the array. -/
theorem emb5_eq (t : Fin cfg4.N) (j : S256x1.Idx) : ((cfg4.win 5).blk t).view.emb j = j := by
  obtain ⟨e0, e1, e2, e3, e4, e5⟩ := idx_facts t
  refine funext fun a => Fin.ext ?_
  match a with
  | ⟨0, _⟩ => show win4_5.index t (0 : Fin 2) * 256 + 1 * (j 0).val = (j 0).val; rw [e5 0]; omega
  | ⟨1, _⟩ => show win4_5.index t (1 : Fin 2) * 1 + 1 * (j 1).val = (j 1).val; rw [e5 1]; omega

/-- What the one point writes back is the whole result. -/
theorem flushed_eq (c : Dev nD) (t : Fin cfg4.N) :
    (dat4 V c).flushed 5 t = ((cfg4.win 5).blk t).view.read (Elt Ideal)
      (head (V c main_v73) (V c main_arg7) (V c main_v74) (V c main_arg9) (V c main_v75)) := by
  show (cfg4.win 5).cut (grid4.coords t) ((dat4 V c).after 5 t) = _
  rw [after4_5]
  unfold out4_5
  rw [View.canon_unit_zero hz]
  simp only [View.ld_unit_zero (S := S256x32) hz, View.ld_unit_zero (S := S32x32) hz, View.ld_unit_zero (S := S1x32) hz,
    View.ld_unit_zero (S := S32x1) hz, View.ld_unit_zero (S := S1x1) hz]
  funext j
  refine (pay_apply _ _ _ _ _ j).trans ?_
  rw [blk0_eq V c t, blk1_eq V c t, blk2_eq V c t, blk3_eq V c t, blk4_eq V c t]
  show _ = head (V c main_v73) (V c main_arg7) (V c main_v74) (V c main_arg9) (V c main_v75) (((cfg4.win 5).blk t).view.emb j)
  rw [emb5_eq]

/-- An index of the output array is in the one block. -/
theorem mem_blk (t : Fin cfg4.N) (i : S256x1.Idx) :
    i ∈ ((cfg4.win 5).blk t).view.set ↔ ∀ a : Fin 2, win4_5.index t a * S256x1.size a ≤ (i a).val ∧ (i a).val < win4_5.index t a * S256x1.size a + S256x1.size a := by
  show i ∈ ((View.whole main_v76).slice (win4_5.rect t)).set ↔ _
  rw [View.set_slice_whole, Rect.mem_set_unit]
  exact Iff.rfl

/-- The one block is the whole output. -/
theorem cover (i : S256x1.Idx) :
    ∃ t : Fin cfg4.N, (cfg4.win 5).flush t = true ∧ i ∈ ((cfg4.win 5).blk t).view.set := by
  have hi0 : (i 0).val < 256 := (i 0).isLt
  have hi1 : (i 1).val < 1 := (i 1).isLt
  obtain ⟨e0, e1, e2, e3, e4, e5⟩ := idx_facts t4_0
  refine ⟨t4_0, flush4_5 t4_0, ?_⟩
  rw [mem_blk]
  intro a
  match a with
  | ⟨0, _⟩ => show win4_5.index t4_0 (0 : Fin 2) * 256 ≤ (i 0).val ∧ (i 0).val < win4_5.index t4_0 (0 : Fin 2) * 256 + 256; rw [e5 0]; omega
  | ⟨1, _⟩ => show win4_5.index t4_0 (1 : Fin 2) * 1 ≤ (i 1).val ∧ (i 1).val < win4_5.index t4_0 (1 : Fin 2) * 1 + 1; rw [e5 1]; omega

/-- The output array after the region: `head` of the five arrays the region finds. -/
theorem final (c : Dev nD) : (dat4 V c).arrAt 5 cfg4.N
    = head (V c main_v73) (V c main_arg7) (V c main_v74) (V c main_arg9) (V c main_v75) :=
  (dat4 V c).arrAt_eq_of_cover 5 _ (fun t _ => flushed_eq V c t) (cover)

end Cert.KernelIdeal.Region4

end
-- ==== Proof.ChainE.lean ====
/-
  The pooling and the head. The host operations after the fourth region count the nodes of every graph, sum the node
  features per graph and divide by the count (at least one), exactly as the reference does, and recast the two head
  biases as one-row matrices; the last region is the two-layer head. Its logistic function is, on the extended reals,
  the quotient 1 / (1 + exp(-z)) that the reference spells out with a negation, an exponential, an addition and a
  division, and its two exact products are the reference's two dot_generals.
-/
import proofs.«125847_j27788438405232_1_alg».proof.Proof.ChainD
import proofs.«125847_j27788438405232_1_alg».proof.Proof.Region4
import Idealize.ShloMosaic.Lib.ValueLayout
import Idealize.ShloMosaic.PureOps.IdealRules

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- The pooled embeddings: per-graph sums of the node features over per-graph node counts. -/
theorem W10_v73 : W10 m ρ c (Proc.devRef .tc main_v73) = val_main_v76 (F := Ideal) (A0 m c) (A1 m c) (A2 m c) (A3 m c) (A4 m c) (A5 m c) (A6 m c) := by
  show StableHlo.after hostOps4 (W9 m ρ c) (Proc.devRef .tc main_v73) = _
  after_all
  rw [W9_v61, W9_arg2]
  rfl

/-- The head's first bias as a one-row matrix. -/
theorem W10_v74 : W10 m ρ c (Proc.devRef .tc main_v74) = shapeCast S1x32 ((A8 m c) : S32.Idx → Elt Ideal .f32) shapeCasts_S32_S1x32 := by
  show StableHlo.after hostOps4 (W9 m ρ c) (Proc.devRef .tc main_v74) = _
  after_all
  rw [W9_arg8]
  rfl

/-- The head's second bias as a one-entry matrix. -/
theorem W10_v75 : W10 m ρ c (Proc.devRef .tc main_v75) = shapeCast S1x1 ((A10 m c) : S1.Idx → Elt Ideal .f32) shapeCasts_S1_S1x1 := by
  show StableHlo.after hostOps4 (W9 m ρ c) (Proc.devRef .tc main_v75) = _
  after_all
  rw [W9_arg10]
  rfl

/-! The stretch writes neither weight matrix of the head. -/
theorem W10_arg7 : W10 m ρ c (Proc.devRef .tc main_arg7) = (A7 m c) := by
  show StableHlo.after hostOps4 (W9 m ρ c) (Proc.devRef .tc main_arg7) = _
  after_all
  exact W9_arg7 m ρ c
theorem W10_arg9 : W10 m ρ c (Proc.devRef .tc main_arg9) = (A9 m c) := by
  show StableHlo.after hostOps4 (W9 m ρ c) (Proc.devRef .tc main_arg9) = _
  after_all
  exact W9_arg9 m ρ c

/-! ## The head against the reference's tail -/

/-- The reference's dot_general of this shape, the left operand any array. -/
abbrev dotA (H : FVec Ideal S256x32 .f32) (W : FVec Ideal S32x32 .f32) : FVec Ideal S256x32 .f32 :=
  Host.dotGeneral (F := Ideal) Cert.ReferenceIdeal.dot_S256x32_S32x32_S256x32_1_0_0_1_n_n none H W

/-- Read at an entry it is the sum over the contraction axis (the reference's own read of this operation). -/
theorem dotA_apply (H : FVec Ideal S256x32 .f32) (W : FVec Ideal S32x32 .f32) (i : S256x32.Idx) :
    dotA H W i = ∑ k : Fin 32, H (lidx_main_v77 i k) * W (ridx_main_v77 i k) := by
  unfold dotA
  simp only [Host.dotGeneral]
  rw [Ideal.dotGeneral_apply, ← Equiv.sum_comp (contrEquiv1 Cert.ReferenceIdeal.dot_S256x32_S32x32_S256x32_1_0_0_1_n_n 32 rfl rfl).symm]
  refine Finset.sum_congr rfl fun k _ => ?_
  have hk := contrEquiv1_symm_val Cert.ReferenceIdeal.dot_S256x32_S32x32_S256x32_1_0_0_1_n_n 32 rfl rfl k
  have el : Cert.ReferenceIdeal.dot_S256x32_S32x32_S256x32_1_0_0_1_n_n.lhsIdx i ((contrEquiv1 Cert.ReferenceIdeal.dot_S256x32_S32x32_S256x32_1_0_0_1_n_n 32 rfl rfl).symm k) = lidx_main_v77 i k := funext fun a => Fin.ext (by
    match a with
    | ⟨0, _⟩ => exact lhs_main_v77_0 _ _
    | ⟨1, _⟩ => exact (lhs_main_v77_1 _ _).trans hk)
  have er : Cert.ReferenceIdeal.dot_S256x32_S32x32_S256x32_1_0_0_1_n_n.rhsIdx i ((contrEquiv1 Cert.ReferenceIdeal.dot_S256x32_S32x32_S256x32_1_0_0_1_n_n 32 rfl rfl).symm k) = ridx_main_v77 i k := funext fun a => Fin.ext (by
    match a with
    | ⟨0, _⟩ => exact (rhs_main_v77_0 _ _).trans hk
    | ⟨1, _⟩ => exact rhs_main_v77_1 _ _)
  rw [el, er]

/-- The reference's dot_general of this shape, the left operand any array. -/
abbrev dotB (H : FVec Ideal S256x32 .f32) (W : FVec Ideal S32x1 .f32) : FVec Ideal S256x1 .f32 :=
  Host.dotGeneral (F := Ideal) Cert.ReferenceIdeal.dot_S256x32_S32x1_S256x1_1_0_0_1_n_n none H W

/-- Read at an entry it is the sum over the contraction axis (the reference's own read of this operation). -/
theorem dotB_apply (H : FVec Ideal S256x32 .f32) (W : FVec Ideal S32x1 .f32) (i : S256x1.Idx) :
    dotB H W i = ∑ k : Fin 32, H (lidx_main_v82 i k) * W (ridx_main_v82 i k) := by
  unfold dotB
  simp only [Host.dotGeneral]
  rw [Ideal.dotGeneral_apply, ← Equiv.sum_comp (contrEquiv1 Cert.ReferenceIdeal.dot_S256x32_S32x1_S256x1_1_0_0_1_n_n 32 rfl rfl).symm]
  refine Finset.sum_congr rfl fun k _ => ?_
  have hk := contrEquiv1_symm_val Cert.ReferenceIdeal.dot_S256x32_S32x1_S256x1_1_0_0_1_n_n 32 rfl rfl k
  have el : Cert.ReferenceIdeal.dot_S256x32_S32x1_S256x1_1_0_0_1_n_n.lhsIdx i ((contrEquiv1 Cert.ReferenceIdeal.dot_S256x32_S32x1_S256x1_1_0_0_1_n_n 32 rfl rfl).symm k) = lidx_main_v82 i k := funext fun a => Fin.ext (by
    match a with
    | ⟨0, _⟩ => exact lhs_main_v82_0 _ _
    | ⟨1, _⟩ => exact (lhs_main_v82_1 _ _).trans hk)
  have er : Cert.ReferenceIdeal.dot_S256x32_S32x1_S256x1_1_0_0_1_n_n.rhsIdx i ((contrEquiv1 Cert.ReferenceIdeal.dot_S256x32_S32x1_S256x1_1_0_0_1_n_n 32 rfl rfl).symm k) = ridx_main_v82 i k := funext fun a => Fin.ext (by
    match a with
    | ⟨0, _⟩ => exact (rhs_main_v82_0 _ _).trans hk
    | ⟨1, _⟩ => exact rhs_main_v82_1 _ _)
  rw [el, er]

/-- The reference's hidden layer from any embeddings. -/
def refHidden (P : FVec Ideal S256x32 .f32) (w1 : FVec Ideal S32x32 .f32) (b1 : FVec Ideal S32 .f32) : FVec Ideal S256x32 .f32 :=
  maximumf (F := Ideal) (addf (dotA P w1) (val_main_v79 (F := Ideal) b1)) (val_main_call2_v0 (F := Ideal))

/-- The reference's last operations from any embeddings: two dot_generals with broadcast biases, a rectifier between
    them, and 1 / (1 + exp(-z)) spelt out. -/
def refTail (P : FVec Ideal S256x32 .f32) (w1 : FVec Ideal S32x32 .f32) (b1 : FVec Ideal S32 .f32)
    (w2 : FVec Ideal S32x1 .f32) (b2 : FVec Ideal S1 .f32) : FVec Ideal S256x1 .f32 :=
  Host.divf (F := Ideal) (val_main_v90 (F := Ideal)) (addf (val_main_v88 (F := Ideal)) (Host.exp (Host.negf (addf (dotB (refHidden P w1 b1) w2) (val_main_v84 (F := Ideal) b2)))))

/-- The bit pattern of the float one denotes the real one. -/
theorem one_f32 : Ideal.ofBits .f32 0x3F800000#32 = 1 := IdealRules.sign_bit.ideal_onePat .f32

/-- The region's hidden layer is the reference's. -/
theorem hidden_eq (P : FVec Ideal S256x32 .f32) (w1 : FVec Ideal S32x32 .f32) (b1 : FVec Ideal S32 .f32) (j : S256x32.Idx) :
    Region4.hidden P w1 (shapeCast S1x32 b1 shapeCasts_S32_S1x32) j = refHidden P w1 b1 j := by
  have hb : shapeCast S1x32 b1 shapeCasts_S32_S1x32 (ix2 (0 : Fin 1) (j 1)) = b1 (ix1 (j 1)) :=
    shapeCast_a_1a_apply b1 shapeCasts_S32_S1x32 (0 : Fin 1) (j 1)
  have hj : idx_main_v78 (idx_main_v79 j) = ix1 (j 1) := funext fun a => by
    match a with
    | ⟨0, _⟩ => rfl
  unfold Region4.hidden refHidden
  rw [hb, maximumf_apply, addf_apply, dotA_apply, val_main_v79_apply, val_main_v78_apply, hj]
  rfl

/-- The region's result is the reference's tail of the same five arrays. -/
theorem head_eq (P : FVec Ideal S256x32 .f32) (w1 : FVec Ideal S32x32 .f32) (b1 : FVec Ideal S32 .f32)
    (w2 : FVec Ideal S32x1 .f32) (b2 : FVec Ideal S1 .f32) :
    Region4.head P w1 (shapeCast S1x32 b1 shapeCasts_S32_S1x32) w2 (shapeCast S1x1 b2 shapeCasts_S1_S1x1) = refTail P w1 b1 w2 b2 := by
  funext i
  have h1 : (i 1).val < 1 := (i 1).isLt
  have hb2 : shapeCast S1x1 b2 shapeCasts_S1_S1x1 (ix2 (0 : Fin 1) (i 1)) = b2 (ix1 (i 1)) :=
    shapeCast_a_1a_apply b2 shapeCasts_S1_S1x1 (0 : Fin 1) (i 1)
  have hi2 : idx_main_v83 (idx_main_v84 i) = ix1 (i 1) := funext fun a => by
    match a with
    | ⟨0, _⟩ => exact Fin.ext (by show 0 = (i 1).val; omega)
  have hsum : (∑ k : Fin 32, Region4.hidden P w1 (shapeCast S1x32 b1 shapeCasts_S32_S1x32) (Region4.lrowB i k) * w2 (Region4.rcolB i k))
      = dotB (refHidden P w1 b1) w2 i := by
    rw [dotB_apply]
    refine Finset.sum_congr rfl fun k _ => ?_
    rw [hidden_eq]
    rfl
  unfold Region4.head
  rw [hsum, hb2]
  show Ideal.logistic (dotB (refHidden P w1 b1) w2 i + b2 (ix1 (i 1)))
    = Ideal.div (val_main_v90 (F := Ideal) i) (val_main_v88 (F := Ideal) i + Ideal.exp (-(dotB (refHidden P w1 b1) w2 i + val_main_v84 (F := Ideal) b2 i)))
  rw [val_main_v84_apply, val_main_v83_apply, hi2, val_main_v90_apply, val_main_v88_apply, val_main_cst_17_apply, val_main_cst_16_apply]
  show _ = Ideal.div (Ideal.ofBits .f32 0x3F800000#32) (Ideal.ofBits .f32 0x3F800000#32 + _)
  rw [one_f32]
  rfl

/-- The last region's output: the reference's result. -/
theorem W11_v76 : W11 m ρ c (Proc.devRef .tc main_v76) = val_main_v91 (F := Ideal) (A0 m c) (A1 m c) (A2 m c) (A3 m c) (A4 m c) (A5 m c) (A6 m c) (A7 m c) (A8 m c) (A9 m c) (A10 m c) := by
  refine (W11_arr m ρ c 5).trans ((Region4.final (V10 m ρ) c).trans ?_)
  show Region4.head (W10 m ρ c (Proc.devRef .tc main_v73)) (W10 m ρ c (Proc.devRef .tc main_arg7)) (W10 m ρ c (Proc.devRef .tc main_v74))
      (W10 m ρ c (Proc.devRef .tc main_arg9)) (W10 m ρ c (Proc.devRef .tc main_v75)) = _
  rw [W10_v73, W10_arg7, W10_v74, W10_arg9, W10_v75]
  exact head_eq _ _ _ _ _

end Cert.KernelIdeal.Chain

end
-- ==== Proof.lean ====
/-
  A two-layer graph convolution with mean pooling and a two-layer head, computed by five pipelined regions among
  stretches of host operations, against the same network written with plain array operations. On the extended reals
  the two programs compute one function of the eleven argument arrays:

  * the graph side (self loops, degrees, the symmetric normalisation, the gathers and scatter-adds of both layers, the
    pooling) is the same sequence of host operations in both programs;
  * each dense map is a product into a zero accumulator whose roundings to bf16 are the identity, taken block of rows by
    block of rows; a row of a block is a row of the array, so the blocks are the restrictions of the one product the
    reference takes with a dot_general;
  * each bias region adds a one-row matrix to every row, which is the reference's broadcast and addition, and the
    rectifier is the maximum with zero on both sides;
  * the head's logistic function is 1 / (1 + exp(-z)), which the reference spells out.

  No law of arithmetic beyond these identifications is used, so the finiteness of the inputs is not needed.
  The kernel's result is read off its run region by region (the Chain modules); the reference's result is its run's
  composed term, read stage by stage.
-/
import proofs.«125847_j27788438405232_1_alg».proof.Defs
import proofs.«125847_j27788438405232_1_alg».proof.Proof.Gen.Kernel
import proofs.«125847_j27788438405232_1_alg».proof.Proof.Gen.Kernel.Frame
import proofs.«125847_j27788438405232_1_alg».proof.Proof.Gen.KernelIdeal
import proofs.«125847_j27788438405232_1_alg».proof.Proof.Gen.KernelIdeal.Frame
import proofs.«125847_j27788438405232_1_alg».proof.Proof.Gen.ReferenceIdeal
import proofs.«125847_j27788438405232_1_alg».proof.Proof.Gen.Pre_finite_inputs
import proofs.«125847_j27788438405232_1_alg».proof.Proof.RefRun
import proofs.«125847_j27788438405232_1_alg».proof.Proof.RefRead
import proofs.«125847_j27788438405232_1_alg».proof.Proof.KRun
import proofs.«125847_j27788438405232_1_alg».proof.Proof.ChainE
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_p : Cert.frame_Kernel := fun m ρ _ => Cert.Kernel.Gen.frame m ρ

/-- The idealized kernel runs and leaves its arguments as launched. -/
theorem frame_pi : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the reference's last stage of the arguments. -/
theorem algebraic : Cert.algebraic_KernelIdeal_ReferenceIdeal := by
  intro m ρ m' ρ' _ hagree
  refine ⟨fun c => Cert.ReferenceIdeal.ReadP.val_main_v91 (F := Ideal) (Cert.KernelIdeal.Chain.A0 m c) (Cert.KernelIdeal.Chain.A1 m c)
    (Cert.KernelIdeal.Chain.A2 m c) (Cert.KernelIdeal.Chain.A3 m c) (Cert.KernelIdeal.Chain.A4 m c) (Cert.KernelIdeal.Chain.A5 m c)
    (Cert.KernelIdeal.Chain.A6 m c) (Cert.KernelIdeal.Chain.A7 m c) (Cert.KernelIdeal.Chain.A8 m c) (Cert.KernelIdeal.Chain.A9 m c)
    (Cert.KernelIdeal.Chain.A10 m c), ?_, ?_⟩
  · exact (θ_run Cert.KernelIdeal.defs _ _).mono
      (fun r h c => ⟨(h c).1.trans (Cert.KernelIdeal.Chain.W11_v76 m ρ c), (h c).2⟩)
      (Cert.KernelIdeal.KRun.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v91_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
